-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S8x4096 : Shape := ⟨2, ![8, 4096]⟩
abbrev S8 : Shape := ⟨1, ![8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4x4096x4096 .f32) (main_arg1 : FVec F S8x4096 .f32) (main_arg2 : FVec F S8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S4x4096x4096 : Shape := ⟨3, ![4, 4096, 4096]⟩
abbrev S8x4096 : Shape := ⟨2, ![8, 4096]⟩
abbrev S8 : Shape := ⟨1, ![8]⟩
abbrev S_ : Shape := ⟨0, ![]⟩
abbrev S4096x8 : Shape := ⟨2, ![4096, 8]⟩
abbrev S1x1 : Shape := ⟨2, ![1, 1]⟩
abbrev S1x8 : Shape := ⟨2, ![1, 8]⟩
abbrev S4x4096x8 : Shape := ⟨3, ![4, 4096, 8]⟩
abbrev S1x512x4096 : Shape := ⟨3, ![1, 512, 4096]⟩
abbrev S1x512x8 : Shape := ⟨3, ![1, 512, 8]⟩
abbrev S512x4096 : Shape := ⟨2, ![512, 4096]⟩
abbrev S512 : Shape := ⟨1, ![512]⟩
abbrev S512x1 : Shape := ⟨2, ![512, 1]⟩
abbrev S512x8 : Shape := ⟨2, ![512, 8]⟩

abbrev nBuf : Space → Nat
  | .hbm => 31
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S8x4096, .f32⟩
  | .hbm, ⟨2, _⟩ => ⟨S8, .f32⟩
  | .hbm, ⟨3, _⟩ => ⟨S8x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S8x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x4096, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S4096x8, .f32⟩
  | .hbm, ⟨25, _⟩ => ⟨S4096x8, .bf16⟩
  | .hbm, ⟨26, _⟩ => ⟨S_, .f32⟩
  | .hbm, ⟨27, _⟩ => ⟨S_, .f32⟩
  | .hbm, ⟨28, _⟩ => ⟨S1x1, .f32⟩
  | .hbm, ⟨29, _⟩ => ⟨S1x8, .f32⟩
  | .hbm, ⟨30, _⟩ => ⟨S4x4096x8, .f32⟩
  | .local _ .vmem, ⟨0, _⟩ => ⟨S1x512x4096, .f32⟩
  | .local _ .vmem, ⟨1, _⟩ => ⟨S1x512x4096, .f32⟩
  | .local _ .vmem, ⟨2, _⟩ => ⟨S4096x8, .bf16⟩
  | .local _ .vmem, ⟨3, _⟩ => ⟨S1x8, .f32⟩
  | .local _ .vmem, ⟨4, _⟩ => ⟨S1x1, .f32⟩
  | .local _ .vmem, ⟨5, _⟩ => ⟨S1x512x8, .f32⟩
  | .local _ .vmem, ⟨6, _⟩ => ⟨S1x512x8, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_call0_v0 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_cst_4 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8x4096_S_d0_1 : S8x4096.ReducesTo [0, 1] S_
  h_S_ : 0 < S_.numel
  bcast_S_S8x4096 : S_.BroadcastsInDim S8x4096 (![] : Fin 0 → Fin S8x4096.rank)
  transposes_S8x4096_S4096x8_1_0 : S8x4096.Transposes [1, 0] S4096x8
  bitsLt_bf16_f32 : FTy.bits .bf16 < FTy.bits .f32
  shapeCasts_S_S1x1 : S_.ShapeCasts S1x1
  shapeCasts_S8_S1x8 : S8.ShapeCasts S1x8
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S512x4096_S512 : S512x4096.Reduces [1] S512
  shapeCasts_S512_S512x1 : S512.ShapeCasts S512x1
  broadcasts_S512x1_S512x4096 : S512x1.Broadcasts S512x4096
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x8 : S1x1.Broadcasts S512x8
  broadcasts_S512x1_S512x8 : S512x1.Broadcasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  reduces_S512x8_S512 : S512x8.Reduces [1] S512
  inb_S1x512x8_S1x512x8_0_0_0 : ∀ a, (![0, 0, 0] : Fin 3 → Nat) a + S1x512x8.size a ≤ S1x512x8.size a
  h_S1x512x8 : 0 < S1x512x8.numel
  shapeCasts_S1x512x8_S512x8 : S1x512x8.ShapeCasts S512x8
  shapeCasts_S512x8_S1x512x8 : S512x8.ShapeCasts S1x512x8
  dot_S512x4096_S4096x8_S512x8_1_0_0_1_n_n_wf : DotDims.WF S512x4096 S4096x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S4096x8.size a
  hwx0_1 : ∀ i : grid0.Coords, EltTy.bits .bf16 = 32 ∨ (Rect.block (s := S4096x8) S4096x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x8.size a ≤ S4x4096x8.size a
  hwx0_4 : ∀ i : grid0.Coords, EltTy.bits .f32 = 32 ∨ (Rect.block (s := S4x4096x8) S1x512x8.size (cc0_transform_4 i) (hinb0_4 i)).WholeWords (EltTy.packing .f32)

variable [Facts₀]

def dot_S512x4096_S4096x8_S512x8_1_0_0_1_n_n : DotDims S512x4096 S4096x8 S512x8 where
  lhsContracting := [1]
  rhsContracting := [0]
  lhsNonContracting := [0]
  rhsNonContracting := [1]
  lhsBatch := []
  rhsBatch := []
  wf := dot_S512x4096_S4096x8_S512x8_1_0_0_1_n_n_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S8x4096 : Shape := ⟨2, ![8, 4096]⟩
abbrev S8 : Shape := ⟨1, ![8]⟩
abbrev S_ : Shape := ⟨0, ![]⟩
abbrev S4x4096 : Shape := ⟨2, ![4, 4096]⟩
abbrev S4x4096x1 : Shape := ⟨3, ![4, 4096, 1]⟩
abbrev S4x4096x8 : Shape := ⟨3, ![4, 4096, 8]⟩
abbrev S1x1x8 : Shape := ⟨3, ![1, 1, 8]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S8x4096, .f32⟩
  | .hbm, ⟨2, _⟩ => ⟨S8, .f32⟩
  | .hbm, ⟨3, _⟩ => ⟨S4x4096x4096, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S8x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S8x4096, .f32⟩
  | .hbm, ⟨59, _⟩ => ⟨S8x4096, .f32⟩
  | .hbm, ⟨60, _⟩ => ⟨S_, .f32⟩
  | .hbm, ⟨61, _⟩ => ⟨S8x4096, .f32⟩
  | .hbm, ⟨62, _⟩ => ⟨S8x4096, .f32⟩
  | .hbm, ⟨63, _⟩ => ⟨S8x4096, .f32⟩
  | .hbm, ⟨64, _⟩ => ⟨S8x4096, .f32⟩
  | .hbm, ⟨65, _⟩ => ⟨S8x4096, .f32⟩
  | .hbm, ⟨66, _⟩ => ⟨S8x4096, .f32⟩
  | .hbm, ⟨67, _⟩ => ⟨S4x4096x8, .f32⟩
  | .hbm, ⟨68, _⟩ => ⟨S1x1x8, .f32⟩
  | .hbm, ⟨69, _⟩ => ⟨S4x4096x8, .f32⟩
  | .hbm, ⟨70, _⟩ => ⟨S4x4096x8, .f32⟩
  | .hbm, ⟨71, _⟩ => ⟨S_, .f32⟩
  | .hbm, ⟨72, _⟩ => ⟨S4x4096, .f32⟩
  | .hbm, ⟨73, _⟩ => ⟨S_, .f32⟩
  | .hbm, ⟨74, _⟩ => ⟨S4x4096, .f32⟩
  | .hbm, ⟨75, _⟩ => ⟨S4x4096, .f32⟩
  | .hbm, ⟨76, _⟩ => ⟨S4x4096x1, .f32⟩
  | .hbm, ⟨77, _⟩ => ⟨S4x4096x8, .f32⟩
  | .hbm, ⟨78, _⟩ => ⟨S4x4096x8, .f32⟩
  | .hbm, ⟨79, _⟩ => ⟨S4x4096x8, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S4x4096x8, .f32⟩
  | .hbm, ⟨84, _⟩ => ⟨S4x4096x8, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_c_4 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_cst_6 : Ref sig .tc := ⟨.hbm, 45, rfl⟩
abbrev main_v23 : Ref sig .tc := ⟨.hbm, 46, rfl⟩
abbrev main_cst_7 : Ref sig .tc := ⟨.hbm, 47, rfl⟩
abbrev main_call4_v0 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_9 : Ref sig .tc := ⟨.hbm, 55, rfl⟩
abbrev main_c_10 : Ref sig .tc := ⟨.hbm, 56, rfl⟩
abbrev main_call6_v0 : Ref sig .tc := ⟨.hbm, 57, rfl⟩
abbrev main_call6_v1 : Ref sig .tc := ⟨.hbm, 58, rfl⟩
abbrev main_call6_v2 : Ref sig .tc := ⟨.hbm, 59, rfl⟩
abbrev main_call6_v3 : Ref sig .tc := ⟨.hbm, 60, rfl⟩
abbrev main_call6_v4 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_11 : Ref sig .tc := ⟨.hbm, 71, rfl⟩
abbrev main_v38 : Ref sig .tc := ⟨.hbm, 72, rfl⟩
abbrev main_cst_12 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_13 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S8x4096_S_d0_1 : S8x4096.ReducesTo [0, 1] S_
  bcast_S_S8x4096 : S_.BroadcastsInDim S8x4096 (![] : Fin 0 → Fin S8x4096.rank)
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  reducesTo_S4x4096x8_S4x4096_d2 : S4x4096x8.ReducesTo [2] S4x4096
  bcast_S_S4x4096 : S_.BroadcastsInDim S4x4096 (![] : Fin 0 → Fin S4x4096.rank)
  bcast_S4x4096x1_S4x4096x8_0_1_2 : S4x4096x1.BroadcastsInDim S4x4096x8 (![0, 1, 2] : Fin 3 → Fin S4x4096x8.rank)
  dot_S4x4096x4096_S8x4096_S4x4096x8_2_1_01_0_n_n_wf : DotDims.WF S4x4096x4096 S8x4096 S4x4096x8 [2] [1] [0, 1] [0] [] []

variable [Facts₀]

def dot_S4x4096x4096_S8x4096_S4x4096x8_2_1_01_0_n_n : DotDims S4x4096x4096 S8x4096 S4x4096x8 where
  lhsContracting := [2]
  rhsContracting := [1]
  lhsNonContracting := [0, 1]
  rhsNonContracting := [0]
  lhsBatch := []
  rhsBatch := []
  wf := dot_S4x4096x4096_S8x4096_S4x4096x8_2_1_01_0_n_n_wf

class Facts : Prop extends Facts₀ where

variable [Facts]
-- ==== Proof.Gate.lean ====
/-
  A token router over extended reals: what both programs compute, row by row.

  For one token (a row `x` of 4096 entries) the router
    * normalises the row to root-mean-square one: `xn = x · (64 / max (‖x‖, tiny))`, 64 being `√4096`;
    * quantises it to integers in [-128, 127] with the row's own scale `127 / max (eps, max_d |xn d|)`;
    * multiplies by a weight matrix quantised to {-1, 0, 1} with one global scale `sw = 1 / max (eps, mean |W|)`;
    * undoes both scales, adds a bias, and takes the softmax over the 8 experts.
  One program (`logitK`) keeps the integers and the ternary weights through the product and divides by the two scales
  afterwards; the other (`logitR`) rescales both factors before the product, writing each de-quantised factor as
  `y + (q(y) - y)`. On finite inputs the two logits are the same number; the softmax is then one function of them.
  Everything here is stated with the extended-real operations the float operations denote (quotient `Ideal.div`, square
  root `Ideal.sqrt`, rounding to nearest with ties to even), the literals as the values their bit patterns denote.
-/
import Idealize.ShloMosaic.PureOps.Ideal
import Idealize.ShloMosaic.Lib.ValueIdx

noncomputable section

namespace Cert.Gate

open Idealize.ShloMosaic Idealize.ShloMosaic.ValueIdx

/-! ## The literals, as the extended reals their f32 patterns denote -/

/-- The pattern of zero. -/
def zeroW : EReal := Ideal.ofBits .f32 0x00000000#32
/-- The f32 nearest to 1e-12: the floor under the row's norm. -/
def tiny : EReal := Ideal.ofBits .f32 0x2B8CBCCC#32
/-- The f32 nearest to 1e-5: the floor under an absolute maximum or mean. -/
def eps : EReal := Ideal.ofBits .f32 0x3727C5AC#32
/-- 64, the square root of the row length. -/
def c64 : EReal := Ideal.ofBits .f32 0x42800000#32
/-- 127, the largest quantised activation. -/
def c127 : EReal := Ideal.ofBits .f32 0x42FE0000#32
/-- -128, the smallest quantised activation. -/
def cNeg128 : EReal := Ideal.ofBits .f32 0xC3000000#32
/-- 1. -/
def cOne : EReal := Ideal.ofBits .f32 0x3F800000#32
/-- -1. -/
def cNegOne : EReal := Ideal.ofBits .f32 0xBF800000#32
/-- 32768, the number of weights. -/
def c32768 : EReal := Ideal.ofBits .f32 0x47000000#32

/-- The absolute value, as the larger of a number and its negative. -/
def eabs (x : EReal) : EReal := max x (-x)

/-- Rounding to the nearest integer, ties to the even one; the infinities fixed. -/
def rne (x : EReal) : EReal := Ideal.liftRound Ideal.roundHalfEven x

section Row

variable {ι κ : Type} [Fintype ι] [Fintype κ]

/-- The largest absolute value of a family (the least extended real for the empty family). -/
def amaxOf (f : ι → EReal) : EReal := (Finset.univ : Finset ι).fold max ⊥ fun d => eabs (f d)

/-- The Euclidean norm of a row, floored at `tiny`. -/
def normOf (x : ι → EReal) : EReal := max (Ideal.sqrt (∑ d, x d * x d)) tiny

/-! ### Scales folded: quantise `x` directly, rescale the small product -/

/-- The normalising factor `64 / max (‖x‖, tiny)`. -/
def rK (x : ι → EReal) : EReal := Ideal.div c64 (normOf x)

/-- The activation scale `127 / max (eps, max_d |x d| · rK x)`. -/
def saK (x : ι → EReal) : EReal := Ideal.div c127 (max eps (amaxOf x * rK x))

/-- The quantised activation: `x d` times both factors at once, rounded, clamped to [-128, 127]. -/
def qK (x : ι → EReal) (d : ι) : EReal := min c127 (max cNeg128 (rne (x d * (rK x * saK x))))

/-- The logit of expert `e`: the integer product with the ternary weights `wq`, times the reciprocal weight scale `isw`,
    over the activation scale, plus the bias. -/
def logitK (x : ι → EReal) (wq : ι → κ → EReal) (isw : EReal) (bias : κ → EReal) (e : κ) : EReal :=
  Ideal.div ((∑ d, qK x d * wq d e) * isw) (saK x) + bias e

/-! ### Scales applied factor by factor -/

/-- The normalised row `x d / max (‖x‖, tiny) · 64`. -/
def xnR (x : ι → EReal) (d : ι) : EReal := Ideal.div (x d) (normOf x) * c64

/-- The activation scale `127 / max (eps, max_d |xn d|)`. -/
def saR (x : ι → EReal) : EReal := Ideal.div c127 (max eps (amaxOf (xnR x)))

/-- The quantised activation of the normalised row. -/
def qR (x : ι → EReal) (d : ι) : EReal := min c127 (max cNeg128 (rne (xnR x d * saR x)))

/-- The de-quantised activation, written as the normalised entry plus the quantisation error. -/
def xqR (x : ι → EReal) (d : ι) : EReal := xnR x d + (Ideal.div (qR x d) (saR x) - xnR x d)

/-- A weight quantised to {-1, 0, 1} with the scale `sw`. -/
def wq (sw w : EReal) : EReal := min cOne (max cNegOne (rne (w * sw)))

/-- The de-quantised weight, written as the weight plus the quantisation error. -/
def wR (sw w : EReal) : EReal := w + (Ideal.div (wq sw w) sw - w)

/-- The logit of expert `e`: the product of de-quantised activations and de-quantised weights, plus the bias. -/
def logitR (x : ι → EReal) (W : κ → ι → EReal) (sw : EReal) (bias : κ → EReal) (e : κ) : EReal :=
  (∑ d, xqR x d * wR sw (W e d)) + bias e

/-- The softmax of a family of logits, shifted by their maximum. -/
def softmax (l : κ → EReal) (e : κ) : EReal :=
  Ideal.div (Ideal.exp (l e - (Finset.univ : Finset κ).fold max ⊥ l))
    (∑ e', Ideal.exp (l e' - (Finset.univ : Finset κ).fold max ⊥ l))

end Row

/-! ## The whole arrays -/

/-- The activations: 4 sequences of 4096 tokens of 4096 entries. -/
abbrev SX : Shape := ⟨3, ![4, 4096, 4096]⟩
/-- The weights: 8 experts by 4096 entries. -/
abbrev SW : Shape := ⟨2, ![8, 4096]⟩
/-- The bias: one number per expert. -/
abbrev SB : Shape := ⟨1, ![8]⟩
/-- The result: a distribution over the 8 experts per token. -/
abbrev SO : Shape := ⟨3, ![4, 4096, 8]⟩

/-- The mean absolute weight: the sum of all 32768 absolute values (from the zero pattern) over 32768. -/
def meanAbs (W : SW.Idx → EReal) : EReal := Ideal.div (zeroW + ∑ j : SW.Idx, eabs (W j)) c32768

/-- The weight scale `1 / max (eps, mean |W|)`. -/
def swOf (W : SW.Idx → EReal) : EReal := Ideal.div cOne (max eps (meanAbs W))

/-- Token `(b, s)` of the activations, as a row. -/
def rowOf (X : SX.Idx → EReal) (b : Fin 4) (s : Fin 4096) : Fin 4096 → EReal := fun d => X (ix3 b s d)

/-- The ternary weights, laid out entry by expert. -/
def wqT (W : SW.Idx → EReal) : Fin 4096 → Fin 8 → EReal := fun d e => wq (swOf W) (W (ix2 e d))

/-- The router's result at token `(b, s)` and expert `e`, scales folded. -/
def routeAt (X : SX.Idx → EReal) (W : SW.Idx → EReal) (B : SB.Idx → EReal) (b : Fin 4) (s : Fin 4096) (e : Fin 8) : EReal :=
  softmax (logitK (rowOf X b s) (wqT W) (Ideal.div cOne (swOf W)) (fun e' => B (ix1 e'))) e

/-- The router's result as one array, index by index. -/
def route (X : SX.Idx → EReal) (W : SW.Idx → EReal) (B : SB.Idx → EReal) : SO.Idx → EReal :=
  fun i => routeAt X W B (i 0) (i 1) (i 2)

theorem route_ix3 (X : SX.Idx → EReal) (W : SW.Idx → EReal) (B : SB.Idx → EReal) (b : Fin 4) (s : Fin 4096) (e : Fin 8) :
    route X W B (ix3 b s e) = routeAt X W B b s e := rfl

end Cert.Gate

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.LibFoldMax.lean ====
/-
  Maxima of finite families of extended reals, from `⊥`.

  A float maximum-reduction starts from the pattern of `-∞`, which denotes `⊥`, so over the extended reals it is
  `Finset.fold max ⊥`. Two facts a pooled layer needs: that pattern's value, and that adding a constant and then
  clamping at zero — both monotone — commutes with the maximum of a NONEMPTY family. No finiteness is needed: addition
  of extended reals is monotone in each argument, infinities included, and `⊥ + b = ⊥`. Nonemptiness is needed: over
  an empty family the left side is `max (⊥ + b) 0 = 0` and the right side is `⊥`.
-/
import Idealize.ShloMosaic.PureOps.Ideal

noncomputable section

open Idealize.ShloMosaic

namespace Cert.FoldMax

/-- The f32 pattern of minus infinity denotes the least extended real. -/
theorem neg_inf_f32 : Ideal.ofBits .f32 0xFF800000#32 = (⊥ : EReal) := by simp [Ideal.ofBits, Ideal.ieee]

/-- Bias-then-clamp commutes with the maximum of a nonempty family of extended reals (the maximum taken from `⊥`):
    `max (max_k h k + b) 0 = max_k (max (h k + b) 0)`.
    (≤) the running maximum is `⊥` or is below some `h k`; in the first case `⊥ + b = ⊥`, in the second
    `h k + b ≤ max (h k + b) 0`; and `0` is below any clamped term, of which there is at least one.
    (≥) each `h k` is below the maximum, and both maps are monotone. -/
theorem relu_bias_fold_max {ι : Type} (s : Finset ι) (hs : s.Nonempty) (h : ι → EReal) (b : EReal) :
    max (s.fold max ⊥ h + b) 0 = s.fold max ⊥ (fun k => max (h k + b) 0) := by
  apply le_antisymm
  · apply max_le
    · rcases (Finset.le_fold_max (s.fold max ⊥ h)).mp le_rfl with hb | ⟨k, hk, hle⟩
      · rw [le_bot_iff.mp hb, EReal.bot_add]; exact bot_le
      · exact (Finset.le_fold_max _).mpr (Or.inr ⟨k, hk, (add_le_add hle le_rfl).trans (le_max_left _ _)⟩)
    · obtain ⟨k, hk⟩ := hs
      exact (Finset.le_fold_max _).mpr (Or.inr ⟨k, hk, le_max_right _ _⟩)
  · refine (Finset.fold_max_le _).mpr ⟨bot_le, fun k hk => ?_⟩
    exact max_le_max (add_le_add ((Finset.le_fold_max _).mpr (Or.inr ⟨k, hk, le_rfl⟩)) le_rfl) le_rfl

end Cert.FoldMax

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.KernelRow.lean ====
/-
  One grid point of the router's kernel, read entry by entry.

  The body works on a block of 512 tokens: a [512, 4096] matrix of activations. Every statistic it takes is per ROW
  (the sum of squares, the largest absolute value), kept as a [512, 1] column and broadcast back along the row, so the
  logit at (p, q) depends on row p only: it is `Gate.logitK` of that row, of the ternary weights, of the reciprocal weight
  scale and of the bias. The matrix product into a zero tile is the plain sum over the 4096 entries of the row.
-/
import proofs.«131756_j74371653697964_2_alg».proof.Proof.Gen.KernelIdeal.Skeleton
import proofs.«131756_j74371653697964_2_alg».proof.Proof.Gate
import proofs.«131756_j74371653697964_2_alg».proof.Proof.LibKeepdims
import proofs.«131756_j74371653697964_2_alg».proof.Proof.LibFoldMax
import proofs.«131756_j74371653697964_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx

/-- A [1, 1] array broadcast to [a, b] reads its one entry everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The body's arithmetic after the loads, as one function of the block's matrix

The same chain of operations as the body's, from the [512, 4096] matrix of activations on: stated over variables so that
each step can be read at an entry on its own. -/

/-- The logits of a block from its activations as a matrix, the ternary weights, the reciprocal weight scale and the bias. -/
def logitsOfMat (v1 : FVec Ideal S512x4096 .f32) (v28 : FVec Ideal S4096x8 .bf16) (v31 : FVec Ideal S1x1 .f32) (v37 : FVec Ideal S1x8 .f32) :
    FVec Ideal S512x8 .f32 :=
  have v2 : FVec Ideal S512x4096 .f32 := mulf v1 v1
  have v3 : FVec Ideal S512 .f32 := multiReduction .add [1] S512 v2 0x00000000#32 reduces_S512x4096_S512 (.inl rfl) rfl
  have v4 : FVec Ideal S512x1 .f32 := shapeCast S512x1 v3 shapeCasts_S512_S512x1
  have v5 : FVec Ideal S512x4096 .f32 := absf v1
  have v6 : FVec Ideal S512 .f32 := multiReduction .maximumf [1] S512 v5 0xFF800000#32 reduces_S512x4096_S512 (.inl rfl) rfl
  have v7 : FVec Ideal S512x1 .f32 := shapeCast S512x1 v6 shapeCasts_S512_S512x1
  have v8 : FVec Ideal S512x1 .f32 := sqrt v4
  have cst_3 : Ideal .f32 := Scalar.ofBits .f32 0x2B8CBCCC#32
  have v9 : FVec Ideal S512x1 .f32 := broadcast S512x1 cst_3
  have v10 : FVec Ideal S512x1 .f32 := maximumf v8 v9
  have cst_4 : Ideal .f32 := Scalar.ofBits .f32 0x42800000#32
  have v11 : FVec Ideal S512x1 .f32 := broadcast S512x1 cst_4
  have v12 : FVec Ideal S512x1 .f32 := divf v11 v10
  have v13 : FVec Ideal S512x1 .f32 := mulf v7 v12
  have cst_5 : Ideal .f32 := Scalar.ofBits .f32 0x3727C5AC#32
  have v14 : FVec Ideal S512x1 .f32 := broadcast S512x1 cst_5
  have v15 : FVec Ideal S512x1 .f32 := maximumf v14 v13
  have cst_6 : Ideal .f32 := Scalar.ofBits .f32 0x42FE0000#32
  have v16 : FVec Ideal S512x1 .f32 := broadcast S512x1 cst_6
  have v17 : FVec Ideal S512x1 .f32 := divf v16 v15
  have v18 : FVec Ideal S512x1 .f32 := mulf v12 v17
  have v19 : FVec Ideal S512x4096 .f32 := broadcastTo S512x4096 v18 broadcasts_S512x1_S512x4096
  have v20 : FVec Ideal S512x4096 .f32 := mulf v1 v19
  have v21 : FVec Ideal S512x4096 .f32 := roundeven v20
  have cst_7 : Ideal .f32 := Scalar.ofBits .f32 0xC3000000#32
  have cst_8 : Ideal .f32 := Scalar.ofBits .f32 0x42FE0000#32
  have v22 : FVec Ideal S512x4096 .f32 := broadcast S512x4096 cst_7
  have v23 : FVec Ideal S512x4096 .f32 := maximumf v22 v21
  have v24 : FVec Ideal S512x4096 .f32 := broadcast S512x4096 cst_8
  have v25 : FVec Ideal S512x4096 .f32 := minimumf v24 v23
  have v26 : FVec Ideal S512x4096 .bf16 := truncf .bf16 v25 bitsLt_bf16_f32
  have cst_11 : FVec Ideal S512x8 .f32 := constant S512x8 .f32 0x00000000#32
  have v29 : FVec Ideal S512x8 .f32 := matmul dot_S512x4096_S4096x8_S512x8_1_0_0_1_n_n none v26 v28 cst_11
  have v32 : FVec Ideal S512x8 .f32 := broadcastTo S512x8 v31 broadcasts_S1x1_S512x8
  have v33 : FVec Ideal S512x8 .f32 := mulf v29 v32
  have v34 : FVec Ideal S512x8 .f32 := broadcastTo S512x8 v17 broadcasts_S512x1_S512x8
  have v35 : FVec Ideal S512x8 .f32 := divf v33 v34
  have v38 : FVec Ideal S512x8 .f32 := broadcastTo S512x8 v37 broadcasts_S1x8_S512x8
  have v39 : FVec Ideal S512x8 .f32 := addf v35 v38
  v39

/-- The body's logits are this function of the loads, the first as a matrix. -/
theorem pay2_eq (P0 : FVec Ideal S1x512x4096 .f32) (P1 : FVec Ideal S4096x8 .bf16) (P2 : FVec Ideal S1x1 .f32) (P3 : FVec Ideal S1x8 .f32) :
    k0_pay2 (F := Ideal) P0 P1 P2 P3
      = logitsOfMat (shapeCast S512x4096 P0 shapeCasts_S1x512x4096_S512x4096) (shapeCast S4096x8 P1 shapeCasts_S4096x8_S4096x8)
          (shapeCast S1x1 P2 shapeCasts_S1x1_S1x1) (shapeCast S1x8 P3 shapeCasts_S1x8_S1x8) := rfl

/-! ## Each step at an entry -/

section Steps

variable (v1 : FVec Ideal S512x4096 .f32) (x : Fin 4096 → EReal) (p : Fin 512)

/-- The sum of the squares of row `p`, kept as a column. -/
theorem sumsq_col (h1 : ∀ d : Fin 4096, v1 (ix2 p d) = x d) :
    shapeCast S512x1 (multiReduction .add [1] S512 (mulf v1 v1) 0x00000000#32 reduces_S512x4096_S512 (.inl rfl) rfl) shapeCasts_S512_S512x1 (ix2 p (0 : Fin 1))
      = ∑ d : Fin 4096, x d * x d :=
  (shapeCast_a_a1_apply _ _ p 0).trans ((rowSum_apply (mulf v1 v1) _ _ _ _ p).trans
    (Finset.sum_congr rfl fun d _ => by show v1 (ix2 p d) * v1 (ix2 p d) = _; rw [h1]))

/-- The largest absolute value of row `p`, kept as a column. -/
theorem amax_col (h1 : ∀ d : Fin 4096, v1 (ix2 p d) = x d) :
    shapeCast S512x1 (multiReduction .maximumf [1] S512 (absf v1) 0xFF800000#32 reduces_S512x4096_S512 (.inl rfl) rfl) shapeCasts_S512_S512x1 (ix2 p (0 : Fin 1))
      = Cert.Gate.amaxOf x :=
  (shapeCast_a_a1_apply _ _ p 0).trans ((rowMax_apply (absf v1) _ _ _ _ p).trans (by
    rw [Cert.FoldMax.neg_inf_f32]
    unfold Cert.Gate.amaxOf
    refine congrArg (fun f : Fin 4096 → EReal => (Finset.univ : Finset (Fin 4096)).fold max ⊥ f) (funext fun d => ?_)
    show max (v1 (ix2 p d)) (-(v1 (ix2 p d))) = _
    rw [h1]; rfl))

variable (v4 v7 v12 v17 : FVec Ideal S512x1 .f32)

/-- The normalising factor of row `p`. -/
theorem rK_col (h4 : v4 (ix2 p (0 : Fin 1)) = ∑ d : Fin 4096, x d * x d) :
    divf (broadcast S512x1 (FloatOps.ofBits (F := Ideal) .f32 0x42800000#32))
        (maximumf (sqrt v4) (broadcast S512x1 (FloatOps.ofBits (F := Ideal) .f32 0x2B8CBCCC#32))) (ix2 p (0 : Fin 1))
      = Cert.Gate.rK x := by
  show Ideal.div (Ideal.ofBits .f32 0x42800000#32) (max (Ideal.sqrt (v4 (ix2 p (0 : Fin 1)))) (Ideal.ofBits .f32 0x2B8CBCCC#32)) = _
  rw [h4]; rfl

/-- The activation scale of row `p`. -/
theorem saK_col (h7 : v7 (ix2 p (0 : Fin 1)) = Cert.Gate.amaxOf x) (h12 : v12 (ix2 p (0 : Fin 1)) = Cert.Gate.rK x) :
    divf (broadcast S512x1 (FloatOps.ofBits (F := Ideal) .f32 0x42FE0000#32))
        (maximumf (broadcast S512x1 (FloatOps.ofBits (F := Ideal) .f32 0x3727C5AC#32)) (mulf v7 v12)) (ix2 p (0 : Fin 1))
      = Cert.Gate.saK x := by
  show Ideal.div (Ideal.ofBits .f32 0x42FE0000#32) (max (Ideal.ofBits .f32 0x3727C5AC#32) (v7 (ix2 p (0 : Fin 1)) * v12 (ix2 p (0 : Fin 1)))) = _
  rw [h7, h12]; rfl

/-- The quantised entry `d` of row `p`. -/
theorem qK_row (d : Fin 4096) (h1 : v1 (ix2 p d) = x d) (h12 : v12 (ix2 p (0 : Fin 1)) = Cert.Gate.rK x)
    (h17 : v17 (ix2 p (0 : Fin 1)) = Cert.Gate.saK x) :
    truncf .bf16 (minimumf (broadcast S512x4096 (FloatOps.ofBits (F := Ideal) .f32 0x42FE0000#32))
        (maximumf (broadcast S512x4096 (FloatOps.ofBits (F := Ideal) .f32 0xC3000000#32))
          (roundeven (mulf v1 (broadcastTo S512x4096 (mulf v12 v17) broadcasts_S512x1_S512x4096))))) bitsLt_bf16_f32 (ix2 p d)
      = Cert.Gate.qK x d := by
  show min (Ideal.ofBits .f32 0x42FE0000#32) (max (Ideal.ofBits .f32 0xC3000000#32)
      (Ideal.liftRound Ideal.roundHalfEven (v1 (ix2 p d) * broadcastTo S512x4096 (mulf v12 v17) broadcasts_S512x1_S512x4096 (ix2 p d)))) = _
  rw [h1, broadcastTo_a1_ab_apply (mulf v12 v17) _ p d]
  show min _ (max _ (Ideal.liftRound Ideal.roundHalfEven (_ * (v12 (ix2 p (0 : Fin 1)) * v17 (ix2 p (0 : Fin 1)))))) = _
  rw [h12, h17]; rfl

end Steps

/-- The logit at row `p` and expert `q` of a block, from the block's matrix whose row `p` is `x`. -/
theorem logitsOfMat_apply (v1 : FVec Ideal S512x4096 .f32) (w : FVec Ideal S4096x8 .bf16) (isw : FVec Ideal S1x1 .f32) (bias : FVec Ideal S1x8 .f32)
    (x : Fin 4096 → EReal) (p : Fin 512) (q : Fin 8) (h1 : ∀ d : Fin 4096, v1 (ix2 p d) = x d) :
    logitsOfMat v1 w isw bias (ix2 p q)
      = Cert.Gate.logitK x (fun (d : Fin 4096) (e : Fin 8) => w (ix2 d e)) (isw (ix2 (0 : Fin 1) (0 : Fin 1))) (fun e : Fin 8 => bias (ix2 (0 : Fin 1) e)) q := by
  have h12 := rK_col x p _ (sumsq_col v1 x p h1)
  have h17 := saK_col x p _ _ (amax_col v1 x p h1) h12
  unfold logitsOfMat Cert.Gate.logitK
  dsimp only
  refine (addf_apply _ _ _).trans (congrArg₂ (· + ·) ((divf_apply _ _ _).trans (congrArg₂ Ideal.div ((mulf_apply _ _ _).trans (congrArg₂ (· * ·) ?_ ?_)) ?_)) ?_)
  · exact (Cert.LibPlainDot.matmul_plain_zero_apply none _ _ p q).trans
      (Finset.sum_congr rfl fun d _ => congrArg (· * w (ix2 d q)) (qK_row v1 x p _ _ d (h1 d) h12 h17))
  · exact broadcastTo_11_ab_apply _ _ p q
  · exact (broadcastTo_a1_ab_apply _ _ p q).trans h17
  · exact broadcastTo_1b_ab_apply _ _ p q

/-- The logit the body computes at row `p` and expert `q` of a block, from the block's loads: the activations `P0`
    ([1, 512, 4096]), the ternary weights `P1` ([4096, 8]), the reciprocal weight scale `P2` ([1, 1]) and the bias `P3` ([1, 8]). -/
theorem pay2_apply (P0 : FVec Ideal S1x512x4096 .f32) (P1 : FVec Ideal S4096x8 .bf16) (P2 : FVec Ideal S1x1 .f32) (P3 : FVec Ideal S1x8 .f32)
    (p : Fin 512) (q : Fin 8) :
    k0_pay2 (F := Ideal) P0 P1 P2 P3 (ix2 p q)
      = Cert.Gate.logitK (fun d : Fin 4096 => P0 (ix3 (0 : Fin 1) p d)) (fun (d : Fin 4096) (e : Fin 8) => P1 (ix2 d e))
          (P2 (ix2 (0 : Fin 1) (0 : Fin 1))) (fun e : Fin 8 => P3 (ix2 (0 : Fin 1) e)) q := by
  rw [pay2_eq, shapeCast_self P1, shapeCast_self P2, shapeCast_self P3]
  exact logitsOfMat_apply _ P1 P2 P3 _ p q fun d => shapeCast_1ab_ab_apply P0 _ p d

end Cert.KernelIdeal.Row

end
-- ==== Proof.KernelBlock.lean ====
/-
  What one grid point leaves in its output block.

  After the logits of the block's 512 tokens the body takes, per row, the maximum over the 8 experts, subtracts it,
  exponentiates, sums the row and divides: the softmax of the row's logits. With the logits read entry by entry
  (`Row.pay2_apply`) the block the point leaves is, at (0, p, q), the router's value for the token in row p at expert q.
-/
import proofs.«131756_j74371653697964_2_alg».proof.Proof.KernelRow
import proofs.«131756_j74371653697964_2_alg».proof.Proof.Gen.KernelIdeal.Value

noncomputable section

namespace Cert.KernelIdeal.Block

open Cert.KernelIdeal Cert.KernelIdeal.Gen Idealize.ShloMosaic Idealize.ShloMosaic.ValueIdx

/-- The softmax of row `p` of a [512, 8] matrix of logits, as the body spells it: the row maximum and the row sum are
    reductions along the columns, kept as columns and broadcast back. -/
theorem softmax_block (L : FVec Ideal S512x8 .f32) (p : Fin 512) (q : Fin 8) :
    Ideal.div (Ideal.exp (L (ix2 p q) - multiReduction .maximumf [1] S512 L 0xFF800000#32 reduces_S512x8_S512 (.inl rfl) rfl (ix1 p)))
        (multiReduction .add [1] S512 (exp (subf L (broadcastTo S512x8 (shapeCast S512x1
          (multiReduction .maximumf [1] S512 L 0xFF800000#32 reduces_S512x8_S512 (.inl rfl) rfl) shapeCasts_S512_S512x1) broadcasts_S512x1_S512x8)))
          0x00000000#32 reduces_S512x8_S512 (.inl rfl) rfl (ix1 p))
      = Cert.Gate.softmax (fun e : Fin 8 => L (ix2 p e)) q := by
  have hm : multiReduction .maximumf [1] S512 L 0xFF800000#32 reduces_S512x8_S512 (.inl rfl) rfl (ix1 p)
      = (Finset.univ : Finset (Fin 8)).fold max ⊥ (fun e : Fin 8 => L (ix2 p e)) :=
    (rowMax_apply L _ _ _ _ p).trans (by rw [Cert.FoldMax.neg_inf_f32])
  unfold Cert.Gate.softmax
  refine congrArg₂ Ideal.div (congrArg Ideal.exp (congrArg (L (ix2 p q) - ·) hm)) ?_
  refine (rowSum_apply _ _ _ _ _ p).trans (Finset.sum_congr rfl fun e _ => ?_)
  refine (show _ = Ideal.exp (L (ix2 p e) - broadcastTo S512x8 _ broadcasts_S512x1_S512x8 (ix2 p e)) from rfl).trans ?_
  refine congrArg Ideal.exp (congrArg (L (ix2 p e) - ·) ?_)
  exact (broadcastTo_a1_ab_apply _ _ p e).trans ((shapeCast_a_a1_apply _ _ p 0).trans hm)

/-- Block index (0, p, q) reads the logits at (p, q), -/
theorem ix4_0_ix3 (u : Fin 1) (p : Fin 512) (q : Fin 8) : Value.ix4_0 (ix3 u p q) = ix2 p q :=
  funext fun a => Fin.ext (by match a with | ⟨0, _⟩ => rfl | ⟨1, _⟩ => rfl)
/-- the row maximum at p, -/
theorem ix4_1_ix3 (u : Fin 1) (p : Fin 512) (q : Fin 8) : Value.ix4_1 (ix3 u p q) = ix1 p :=
  funext fun a => Fin.ext (by match a with | ⟨0, _⟩ => rfl)
/-- and the row sum at p. -/
theorem ix4_2_ix3 (u : Fin 1) (p : Fin 512) (q : Fin 8) : Value.ix4_2 (ix3 u p q) = ix1 p :=
  funext fun a => Fin.ext (by match a with | ⟨0, _⟩ => rfl)

/-- The same, with the three read positions given as indices equal to (p, q), p and p. -/
theorem softmax_block_at (L : FVec Ideal S512x8 .f32) (p : Fin 512) (q : Fin 8) (j0 : S512x8.Idx) (j1 j2 : S512.Idx)
    (h0 : j0 = ix2 p q) (h1 : j1 = ix1 p) (h2 : j2 = ix1 p) :
    FloatOps.divf (F := Ideal) (FloatOps.exp (FloatOps.subf (L j0)
        (multiReduction .maximumf [1] S512 L 0xFF800000#32 reduces_S512x8_S512 (.inl rfl) rfl j1)))
        (multiReduction .add [1] S512 (exp (subf L (broadcastTo S512x8 (shapeCast S512x1
          (multiReduction .maximumf [1] S512 L 0xFF800000#32 reduces_S512x8_S512 (.inl rfl) rfl) shapeCasts_S512_S512x1) broadcasts_S512x1_S512x8)))
          0x00000000#32 reduces_S512x8_S512 (.inl rfl) rfl j2)
      = Cert.Gate.softmax (fun e : Fin 8 => L (ix2 p e)) q := by
  subst h0 h1 h2
  exact softmax_block L p q

/-- The block a point leaves, at (0, p, q), is the softmax over the experts of row p's logits. -/
theorem E4_apply (P0 : Vec Ideal S1x512x4096 .f32) (P1 : Vec Ideal S4096x8 .bf16) (P2 : Vec Ideal S1x1 .f32) (P3 : Vec Ideal S1x8 .f32)
    (u : Fin 1) (p : Fin 512) (q : Fin 8) :
    Value.E4 (F := Ideal) P0 P1 P2 P3 (ix3 u p q) = Cert.Gate.softmax (fun e : Fin 8 => k0_pay2 (F := Ideal) P0 P1 P2 P3 (ix2 p e)) q :=
  softmax_block_at (k0_pay2 (F := Ideal) P0 P1 P2 P3) p q _ _ _ (ix4_0_ix3 u p q) (ix4_1_ix3 u p q) (ix4_2_ix3 u p q)

theorem hz3 : (![0, 0, 0] : Fin 3 → Nat) = fun _ => 0 := funext fun a => by fin_cases a <;> rfl
theorem hz2 : (![0, 0] : Fin 2 → Nat) = fun _ => 0 := funext fun a => by fin_cases a <;> rfl

/-- The router's value at one token and expert, from the arrays the region finds: the activations, the ternary weights laid
    out entry by expert, the bias as a row, the reciprocal weight scale as a 1×1 array. -/
def pointAt (X : S4x4096x4096.Idx → EReal) (Wq : S4096x8.Idx → EReal) (Bs : S1x8.Idx → EReal) (Isw : S1x1.Idx → EReal)
    (b : Fin 4) (s : Fin 4096) (e : Fin 8) : EReal :=
  Cert.Gate.softmax (Cert.Gate.logitK (Cert.Gate.rowOf X b s) (fun (d : Fin 4096) (e' : Fin 8) => Wq (ix2 d e'))
    (Isw (ix2 (0 : Fin 1) (0 : Fin 1))) (fun e' : Fin 8 => Bs (ix2 (0 : Fin 1) e'))) e

/-- What a point leaves in its output block at (0, p, q), when row p of its activation block is token (b, s) of the
    activations and its other blocks are the whole small arrays. -/
theorem out_block_apply (X : S4x4096x4096.Idx → EReal) (Wq : S4096x8.Idx → EReal) (Bs : S1x8.Idx → EReal) (Isw : S1x1.Idx → EReal)
    (x0 : Vec Ideal S1x512x4096 .f32) (x1 : Vec Ideal S4096x8 .bf16) (x2 : Vec Ideal S1x8 .f32) (x3 : Vec Ideal S1x1 .f32)
    (b : Fin 4) (s : Fin 4096) (u : Fin 1) (p : Fin 512) (q : Fin 8)
    (h0 : ∀ d : Fin 4096, x0 (ix3 (0 : Fin 1) p d) = X (ix3 b s d))
    (h1 : ∀ (d : Fin 4096) (e : Fin 8), x1 (ix2 d e) = Wq (ix2 d e))
    (h2 : ∀ e : Fin 8, x2 (ix2 (0 : Fin 1) e) = Bs (ix2 (0 : Fin 1) e))
    (h3 : x3 (ix2 (0 : Fin 1) (0 : Fin 1)) = Isw (ix2 (0 : Fin 1) (0 : Fin 1))) :
    out0_4 (F := Ideal) x0 x1 x2 x3 (ix3 u p q) = pointAt X Wq Bs Isw b s q := by
  unfold out0_4
  rw [View.ld_unit_zero (S := S1x512x4096) hz3, View.ld_unit_zero (S := S4096x8) hz2, View.ld_unit_zero (S := S1x1) hz2,
    View.ld_unit_zero (S := S1x8) hz2, Value.canon4_eq, E4_apply]
  unfold pointAt
  refine congrArg (fun l : Fin 8 → EReal => Cert.Gate.softmax l q) (funext fun e => ?_)
  rw [Row.pay2_apply, show (fun d : Fin 4096 => x0 (ix3 (0 : Fin 1) p d)) = Cert.Gate.rowOf X b s from funext h0,
    show (fun (d : Fin 4096) (e' : Fin 8) => x1 (ix2 d e')) = fun d e' => Wq (ix2 d e') from funext fun d => funext fun e' => h1 d e',
    show (fun e' : Fin 8 => x2 (ix2 (0 : Fin 1) e')) = fun e' => Bs (ix2 (0 : Fin 1) e') from funext h2, h3]

end Cert.KernelIdeal.Block

end
-- ==== Proof.KernelArray.lean ====
/-
  From blocks to the array: the kernel's result as one function of the arrays the region finds.

  The grid has 4 × 8 points; point (bi, si) stages tokens 512·si … 512·si + 511 of sequence bi — a [1, 512, 4096] block of
  the activations — with the three small arrays whole, and writes back the [1, 512, 8] block of the result at the same
  block position. Each block the point leaves is the router's value of its own tokens (`Block.out_block_apply`), the 32
  blocks tile the [4, 4096, 8] result, so the result array ends holding the router's value everywhere.
-/
import proofs.«131756_j74371653697964_2_alg».proof.Proof.KernelBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Arr

open Cert.KernelIdeal Cert.KernelIdeal.Gen Idealize.ShloMosaic.ValueIdx

variable (m : (ℓ : Loc nD τ sig) → Buf (Elt Ideal) ℓ) (ρ : Dev nD → PrngReg)

/-- The index maps, decided over the 32 grid points: the activations' block moves with the result's block on the two
    leading axes, every other block index is zero, and the result's block indices stay in their ranges. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 7 ∧ win0_4.index t (2 : Fin 3) = 0 :=
  (by decide +kernel : ∀ t : Fin grid0.N, _)

/-- Every block position of the result is some point's. -/
theorem idx_onto : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-! ## The input blocks, read off the arrays the region finds -/

/-- Row `p` of the activations' block at point `t` is token `(b, s)`, where `b` is the point's first block index and
    `s` is 512 times its second plus `p`. -/
theorem iblk0_apply (c : Dev nD) (t : Fin cfg0.N) (p : Fin 512) (d : Fin 4096) (b : Fin 4) (s : Fin 4096)
    (hb : b.val = win0_0.index t (0 : Fin 3)) (hs : s.val = win0_0.index t (1 : Fin 3) * 512 + p.val) (h2 : win0_0.index t (2 : Fin 3) = 0) :
    (iblk m c 0 t : Vec Ideal S1x512x4096 .f32) (ix3 (0 : Fin 1) p d) = (V m c main_arg0 : S4x4096x4096.Idx → EReal) (ix3 b s d) := by
  unfold iblk
  rw [View.read_apply]
  show V m c main_arg0 _ = V m c main_arg0 _
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * p.val = s.val; omega
  | ⟨2, _⟩ => show win0_0.index t (2 : Fin 3) * 4096 + 1 * d.val = d.val; omega

/-- The ternary weights' block is the whole array. -/
theorem iblk1_apply (c : Dev nD) (t : Fin cfg0.N) (d : Fin 4096) (e : Fin 8)
    (h0 : win0_1.index t (0 : Fin 2) = 0) (h1 : win0_1.index t (1 : Fin 2) = 0) :
    (iblk m c 1 t : Vec Ideal S4096x8 .bf16) (ix2 d e) = (V m c main_v10 : S4096x8.Idx → EReal) (ix2 d e) := by
  unfold iblk
  rw [View.read_apply]
  show V m c main_v10 _ = V m c main_v10 _
  refine congrArg _ (funext fun a => Fin.ext ?_)
  match a with
  | ⟨0, _⟩ => show win0_1.index t (0 : Fin 2) * 4096 + 1 * d.val = d.val; omega
  | ⟨1, _⟩ => show win0_1.index t (1 : Fin 2) * 8 + 1 * e.val = e.val; omega

/-- The bias row's block is the whole array. -/
theorem iblk2_apply (c : Dev nD) (t : Fin cfg0.N) (e : Fin 8)
    (h0 : win0_2.index t (0 : Fin 2) = 0) (h1 : win0_2.index t (1 : Fin 2) = 0) :
    (iblk m c 2 t : Vec Ideal S1x8 .f32) (ix2 (0 : Fin 1) e) = (V m c main_v13 : S1x8.Idx → EReal) (ix2 (0 : Fin 1) e) := by
  unfold iblk
  rw [View.read_apply]
  show V m c main_v13 _ = V m c main_v13 _
  refine congrArg _ (funext fun a => Fin.ext ?_)
  match a with
  | ⟨0, _⟩ => show win0_2.index t (0 : Fin 2) * 1 + 1 * 0 = 0; omega
  | ⟨1, _⟩ => show win0_2.index t (1 : Fin 2) * 8 + 1 * e.val = e.val; omega

/-- The reciprocal weight scale's block is the whole 1×1 array. -/
theorem iblk3_apply (c : Dev nD) (t : Fin cfg0.N)
    (h0 : win0_3.index t (0 : Fin 2) = 0) (h1 : win0_3.index t (1 : Fin 2) = 0) :
    (iblk m c 3 t : Vec Ideal S1x1 .f32) (ix2 (0 : Fin 1) (0 : Fin 1)) = (V m c main_v12 : S1x1.Idx → EReal) (ix2 (0 : Fin 1) (0 : Fin 1)) := by
  unfold iblk
  rw [View.read_apply]
  show V m c main_v12 _ = V m c main_v12 _
  refine congrArg _ (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

/-! ## The result array -/

/-- The result as one function of the arrays the region finds. -/
def G (c : Dev nD) : S4x4096x8.Idx → EReal := fun i =>
  Block.pointAt (V m c main_arg0 : S4x4096x4096.Idx → EReal) (V m c main_v10 : S4096x8.Idx → EReal) (V m c main_v13 : S1x8.Idx → EReal)
    (V m c main_v12 : S1x1.Idx → EReal) (i 0) (i 1) (i 2)

/-- Two functions on block indices [1, 512, 8] that agree at every (u, p, q) are equal. -/
theorem ext_ix3 {α : Type} (f g : (⟨3, ![1, 512, 8]⟩ : Shape).Idx → α) (h : ∀ (u : Fin 1) (p : Fin 512) (q : Fin 8), f (ix3 u p q) = g (ix3 u p q)) : f = g :=
  funext fun y => by rw [eq_ix3 y]; exact h _ _ _

/-- What point `t` writes back is block `t` of `G`. -/
theorem flushed4_eq (c : Dev nD) (t : Fin cfg0.N) :
    (dats m 0 c).flushed 4 t = ((cfg0.win 4).blk t).view.read (Elt Ideal) (G m c) := by
  rw [Value.flushed4]
  obtain ⟨e00, e01, e02, e10, e11, e20, e21, e30, e31, b0, b1, e42⟩ := idx_facts t
  refine ext_ix3 _ _ fun u p q => ?_
  have hu : u.val = 0 := by omega
  have hp : p.val < 512 := p.isLt
  show out0_4 (iblk m c 0 t) (iblk m c 1 t) (iblk m c 2 t) (iblk m c 3 t) (ix3 u p q) = G m c (((cfg0.win 4).blk t).view.emb (ix3 u p q))
  have hi : ((cfg0.win 4).blk t).view.emb (ix3 u p q)
      = ix3 (⟨win0_4.index t (0 : Fin 3), by omega⟩ : Fin 4) (⟨win0_4.index t (1 : Fin 3) * 512 + p.val, by omega⟩ : Fin 4096) q :=
    funext fun a => Fin.ext (by
      match a with
      | ⟨0, _⟩ => show win0_4.index t (0 : Fin 3) * 1 + 1 * u.val = win0_4.index t (0 : Fin 3); omega
      | ⟨1, _⟩ => show win0_4.index t (1 : Fin 3) * 512 + 1 * p.val = win0_4.index t (1 : Fin 3) * 512 + p.val; omega
      | ⟨2, _⟩ => show win0_4.index t (2 : Fin 3) * 8 + 1 * q.val = q.val; omega)
  rw [hi]
  exact Block.out_block_apply _ _ _ _ (iblk m c 0 t) (iblk m c 1 t) (iblk m c 2 t) (iblk m c 3 t) _ _ u p q
    (fun d => iblk0_apply m c t p d _ _ e00.symm (by show win0_4.index t (1 : Fin 3) * 512 + p.val = _; rw [e01]) e02)
    (fun d e => iblk1_apply m c t d e e10 e11) (fun e => iblk2_apply m c t e e20 e21) (iblk3_apply m c t e30 e31)

/-- An index of the result is in point `t`'s block iff each coordinate is in the block's range on its axis. -/
theorem mem_blk4 (t : Fin cfg0.N) (i : S4x4096x8.Idx) :
    i ∈ ((cfg0.win 4).blk t).view.set ↔ ∀ a : Fin 3, win0_4.index t a * S1x512x8.size a ≤ (i a).val ∧ (i a).val < win0_4.index t a * S1x512x8.size a + S1x512x8.size a := by
  show i ∈ ((View.whole main_v14).slice (win0_4.rect t)).set ↔ _
  rw [View.set_slice_whole, Rect.mem_set_unit]
  exact Iff.rfl

/-- The 32 blocks tile the result: the point that covers token `s` of sequence `b` is `(b, s / 512)`. -/
theorem cover4 (i : S4x4096x8.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 8 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 8 ≤ (i 2).val ∧ (i 2).val < win0_4.index t (2 : Fin 3) * 8 + 8; omega

/-- The result array after the run is `G`. -/
theorem final4 (c : Dev nD) : (dats m 0 c).arrAt 4 cfg0.N = G m c :=
  (dats m 0 c).arrAt_eq_of_cover 4 (G m c) (fun t _ => flushed4_eq m c t) cover4

end Cert.KernelIdeal.Arr

end
-- ==== Proof.KernelHost.lean ====
/-
  What three arrays hold when the region is entered, as functions of the program's arguments.

  Before its one region the program prepares, from the weights `W` (8 experts by 4096 entries) and the bias:
    * the weight scale `sw = 1 / max (eps, mean |W|)`, the mean being the total of the 32768 absolute values, summed
      from the zero pattern, over 32768;
    * the ternary weights `min (1, max (-1, rne (W · sw)))`, transposed to entry by expert (the change of format that
      follows is the identity on extended reals);
    * the reciprocal `1 / sw` as a 1×1 array, and the bias as a 1×8 row.
  Each array the region finds is the composition of the operations that wrote it, applied to the arguments as launched;
  read at an index, a transpose swaps the two coordinates, a reshape keeps the row-major position, a broadcast rank-0
  array reads its one value everywhere, and the total sum into rank 0 is the initial value plus the sum over every
  index. The literals are the same bit patterns the router's description names, so the results are its `wqT`, `swOf`.
-/
import proofs.«131756_j74371653697964_2_alg».proof.Proof.Gen.KernelIdeal.Frame
import proofs.«131756_j74371653697964_2_alg».proof.Proof.Gate
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostSide

open Cert.KernelIdeal Cert.KernelIdeal.Gen Idealize.ShloMosaic Idealize.ShloMosaic.TcCoe Idealize.ShloMosaic.ValueIdx Idealize.SL.Sem

/-! ## The host's arrays as functions of the weights -/

/-- The weight scale as the host operations compute it from the weights, a rank-0 array: one over the larger of the
    floor and the mean absolute weight, the mean being the total of the absolute values (summed from the zero pattern)
    over 32768. -/
def swArr (W : S8x4096.Idx → EReal) : S_.Idx → EReal :=
  Host.divf (F := Ideal) (φ := .f32) (constant (F := Ideal) S_ .f32 0x3F800000#32)
    (maximumf (F := Ideal) (φ := .f32) (constant (F := Ideal) S_ .f32 0x3727C5AC#32)
      (Host.divf (F := Ideal) (φ := .f32)
        (Host.reduceAdd (F := Ideal) (φ := .f32) (Host.absf (F := Ideal) (φ := .f32) W)
          (constant (F := Ideal) S_ .f32 0x00000000#32) reducesTo_S8x4096_S_d0_1 h_S_)
        (constant (F := Ideal) S_ .f32 0x47000000#32)))

/-- The ternary weights as the host operations compute them, expert by entry: each weight times the scale, rounded to
    the nearest integer (ties to even), clamped below by -1 and above by 1. -/
def wqArr (W : S8x4096.Idx → EReal) : S8x4096.Idx → EReal :=
  minimumf (F := Ideal) (φ := .f32) (broadcastInDim S8x4096 ![] bcast_S_S8x4096 (constant (F := Ideal) S_ .f32 0x3F800000#32))
    (maximumf (F := Ideal) (φ := .f32) (broadcastInDim S8x4096 ![] bcast_S_S8x4096 (constant (F := Ideal) S_ .f32 0xBF800000#32))
      (Host.roundeven (F := Ideal) (φ := .f32)
        (mulf (F := Ideal) (φ := .f32) W (broadcastInDim S8x4096 ![] bcast_S_S8x4096 (swArr W)))))

/-- The total the host sums: the zero pattern plus the sum of all absolute values. -/
theorem sumAbs_apply (W : S8x4096.Idx → EReal) (j : S_.Idx) :
    Host.reduceAdd (F := Ideal) (φ := .f32) (Host.absf (F := Ideal) (φ := .f32) W)
        (constant (F := Ideal) S_ .f32 0x00000000#32) reducesTo_S8x4096_S_d0_1 h_S_ j
      = Cert.Gate.zeroW + ∑ i : Cert.Gate.SW.Idx, Cert.Gate.eabs (W i) := by
  simp only [Host.reduceAdd, Ideal.hostReduceAdd_def]
  exact Ideal.hostReduceAdd_total reducesTo_S8x4096_S_d0_1 (fun b => b.elim0) _ _ j

/-- The rank-0 array of the scale holds the weight scale. -/
theorem swArr_apply (W : S8x4096.Idx → EReal) (j : S_.Idx) : swArr W j = Cert.Gate.swOf W := by
  show Ideal.div (Ideal.ofBits .f32 0x3F800000#32) (max (Ideal.ofBits .f32 0x3727C5AC#32)
    (Ideal.div (Host.reduceAdd (F := Ideal) (φ := .f32) (Host.absf (F := Ideal) (φ := .f32) W)
        (constant (F := Ideal) S_ .f32 0x00000000#32) reducesTo_S8x4096_S_d0_1 h_S_ j) (Ideal.ofBits .f32 0x47000000#32))) = _
  rw [sumAbs_apply]
  rfl

/-- A rank-0 array broadcast over the weights' shape reads its one value everywhere. -/
theorem bcast0_apply (y : S_.Idx → EReal) (i : S8x4096.Idx) : broadcastInDim S8x4096 ![] bcast_S_S8x4096 y i = y ix0 :=
  broadcastInDim_apply _ bcast_S_S8x4096 y i ix0 (fun a => a.elim0)

/-- The ternary array at expert `e`, entry `d`. -/
theorem wqArr_apply (W : S8x4096.Idx → EReal) (i : S8x4096.Idx) :
    wqArr W i = Cert.Gate.wq (Cert.Gate.swOf W) (W i) := by
  show min (broadcastInDim S8x4096 ![] bcast_S_S8x4096 (constant (F := Ideal) S_ .f32 0x3F800000#32) i)
    (max (broadcastInDim S8x4096 ![] bcast_S_S8x4096 (constant (F := Ideal) S_ .f32 0xBF800000#32) i)
      (Ideal.liftRound Ideal.roundHalfEven (W i * broadcastInDim S8x4096 ![] bcast_S_S8x4096 (swArr W) i))) = _
  rw [bcast0_apply, bcast0_apply, bcast0_apply, swArr_apply]
  rfl

/-! ## The three arrays the region finds -/

variable (m : (ℓ : Loc nD τ sig) → Buf (Elt Ideal) ℓ)

/-- The ternary weights, transposed -/
theorem V_wq (c : Dev nD) (d : Fin 4096) (e : Fin 8) :
    (V m c main_v10 : S4096x8.Idx → EReal) (ix2 d e) = Cert.Gate.wqT (m ((c : Thread nD τ).loc main_arg1)) d e := by
  have h : (V m c main_v10 : S4096x8.Idx → EReal)
      = truncf (F := Ideal) .bf16 (transpose S4096x8 [1, 0] (wqArr (m ((c : Thread nD τ).loc main_arg1))) transposes_S8x4096_S4096x8_1_0)
          bitsLt_bf16_f32 := by
    dsimp only [Gen.V]
    simp only [hostOps0, hostOps0_1, hostOps0_2, hostOps0_3, hostOps0_4, hostOps0_5, hostOps0_6, List.flatten_cons,
      List.flatten_nil, List.append_nil, List.cons_append, List.nil_append]
    open StableHlo in after_results
    rfl
  rw [h, truncf_apply, transpose_ix2_apply, wqArr_apply]
  rfl

/-- The reciprocal of the weight scale, as a 1×1 array -/
theorem V_isw (c : Dev nD) (j : S1x1.Idx) :
    (V m c main_v12 : S1x1.Idx → EReal) j = Ideal.div Cert.Gate.cOne (Cert.Gate.swOf (m ((c : Thread nD τ).loc main_arg1))) := by
  have h : (V m c main_v12 : S1x1.Idx → EReal)
      = shapeCast S1x1 (Host.divf (F := Ideal) (φ := .f32) (constant (F := Ideal) S_ .f32 0x3F800000#32)
          (swArr (m ((c : Thread nD τ).loc main_arg1)))) shapeCasts_S_S1x1 := by
    dsimp only [Gen.V]
    simp only [hostOps0, hostOps0_1, hostOps0_2, hostOps0_3, hostOps0_4, hostOps0_5, hostOps0_6, List.flatten_cons,
      List.flatten_nil, List.append_nil, List.cons_append, List.nil_append]
    open StableHlo in after_results
    rfl
  rw [h, shapeCast_apply _ shapeCasts_S_S1x1 j ix0 (by
    have hn : S_.numel = 1 := by decide
    have h2 := (S_.rowMajor ix0).isLt
    have h0 := idx2_lt0 j
    have h1 := idx2_lt1 j
    rw [Shape.rowMajor_val_two]
    show (S_.rowMajor ix0).val = (j 0).val * 1 + (j 1).val
    omega)]
  show Ideal.div (Ideal.ofBits .f32 0x3F800000#32) (swArr _ ix0) = _
  rw [swArr_apply]
  rfl

/-- The bias as a 1×8 row -/
theorem V_bias (c : Dev nD) (e : Fin 8) :
    (V m c main_v13 : S1x8.Idx → EReal) (ix2 (0 : Fin 1) e) = (m ((c : Thread nD τ).loc main_arg2) : S8.Idx → EReal) (ix1 e) := by
  have h : (V m c main_v13 : S1x8.Idx → EReal)
      = shapeCast S1x8 (m ((c : Thread nD τ).loc main_arg2) : S8.Idx → EReal) shapeCasts_S8_S1x8 := by
    dsimp only [Gen.V]
    simp only [hostOps0, hostOps0_1, hostOps0_2, hostOps0_3, hostOps0_4, hostOps0_5, hostOps0_6, List.flatten_cons,
      List.flatten_nil, List.append_nil, List.cons_append, List.nil_append]
    open StableHlo in after_results
    rfl
  rw [h]
  exact shapeCast_a_1a_apply _ shapeCasts_S8_S1x8 (0 : Fin 1) e

end Cert.KernelIdeal.HostSide

end
-- ==== Proof.KernelRun.lean ====
/-
  The kernel's run, read: its result array is the router's value of the program's arguments.

  The region finds the activations as launched, and three arrays the host wrote before it: the ternary weights (transposed),
  the reciprocal of the weight scale, the bias as a row (`HostSide.V_wq`, `V_isw`, `V_bias`). Substituting them in the array
  function of the blocks gives `Gate.route` of the three arguments.
-/
import proofs.«131756_j74371653697964_2_alg».proof.Proof.KernelArray
import proofs.«131756_j74371653697964_2_alg».proof.Proof.KernelHost

noncomputable section

open Idealize.ShloMosaic Idealize.ShloMosaic.TcCoe Idealize.SL.Sem

namespace Cert.KernelIdeal.Run

open Cert.KernelIdeal Cert.KernelIdeal.Gen Idealize.ShloMosaic.ValueIdx

variable (m : (ℓ : Loc nD τ sig) → Buf (Elt Ideal) ℓ) (ρ : Dev nD → PrngReg)

/-- The array function of the blocks, with the host-written arrays read back to the arguments, is the router's value. -/
theorem G_eq_route (c : Dev nD) :
    Arr.G m c = Cert.Gate.route (m ((c : Thread nD τ).loc main_arg0)) (m ((c : Thread nD τ).loc main_arg1)) (m ((c : Thread nD τ).loc main_arg2)) := by
  funext i
  unfold Arr.G Block.pointAt Cert.Gate.route Cert.Gate.routeAt
  rw [V_main_arg0 m c,
    show (fun (d : Fin 4096) (e' : Fin 8) => (V m c main_v10 : S4096x8.Idx → EReal) (ix2 d e')) = Cert.Gate.wqT (m ((c : Thread nD τ).loc main_arg1))
      from funext fun d => funext fun e' => HostSide.V_wq m c d e',
    HostSide.V_isw m c,
    show (fun e' : Fin 8 => (V m c main_v13 : S1x8.Idx → EReal) (ix2 (0 : Fin 1) e')) = fun e' => (m ((c : Thread nD τ).loc main_arg2) : S8.Idx → EReal) (ix1 e')
      from funext fun e' => HostSide.V_bias m c e']

/-- Every weakly fair execution of the kernel's program terminates with the result array at the router's value of the
    arguments, the arguments unchanged. -/
theorem run : θ_run defs (onTc (τ := τ) (main (F := Ideal))) ⟨m, fun _ => 0, ρ⟩ fun r => ∀ c : Dev nD,
      r.2.mem ((c : Thread nD τ).loc main_v14)
        = Cert.Gate.route (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((Arr.final4 m c).trans (G_eq_route m c)), (h c).2⟩)
    (Cert.KernelIdeal.Value.run_blocks m ρ)

end Cert.KernelIdeal.Run

end
-- ==== Proof.RefStages.lean ====
/- The reference program's fold of host operations, evaluated to the reader's last stage in chunks.
   The program is 82 operations in a row; the fold over a concatenation is the fold over its second part from the fold
   over its first (`after_append`), so the list is cut into seven consecutive chunks and each is evaluated on its own,
   from ANY contents in which the buffers it reads hold their stages: its needed result then holds its stage, and every
   buffer it does not write keeps its contents. Chaining the seven gives the last stage at the result buffer. -/
import proofs.«131756_j74371653697964_2_alg».proof.Proof.RefRead
import Idealize.ShloMosaic.Lib.StableHlo.Run

noncomputable section

namespace Cert.ReferenceIdeal.Stages

open Cert.ReferenceIdeal Cert.ReferenceIdeal.Gen Idealize.ShloMosaic Idealize.ShloMosaic.TcCoe Idealize.ShloMosaic.StableHlo Idealize.SL.Sem

variable {F : FTy → Type} [FloatOps F]

/-- The fold over a concatenation is the fold over the second list from the fold over the first. -/
theorem after_append {τ' : Topo} {sig' : RefSig} {Val : EltTy → Type} (l₁ l₂ : List (HloOp τ' sig' Val))
    (V : Valuation τ' sig' Val) : after (l₁ ++ l₂) V = after l₂ (after l₁ V) := by
  induction l₁ generalizing V with
  | nil => rfl
  | cons op l ih => rw [List.cons_append, after_cons, after_cons, ih]

/-- Operations 0–12 of the reference program, in order (an operation of an inlined function written with
    the plain builder at its literal buffers: the same operation, its function no longer moved along the
    buffers' type equations, which are identities). -/
abbrev chunkA : List (HloOp τ sig (Elt F)) :=
  [ binary main_arg0 main_arg0 main_call0_v0 (mulf : (⟨S4x4096x4096, .f32⟩ : BufTy).Contents (Elt F) → (⟨S4x4096x4096, .f32⟩ : BufTy).Contents (Elt F) → (⟨S4x4096x4096, .f32⟩ : BufTy).Contents (Elt F)),
    nullary main_call0_cst (constant S_ .f32 0x00000000#32 : (⟨S_, .f32⟩ : BufTy).Contents (Elt F)),
    binary main_call0_v0 main_call0_cst main_call0_v1 (fun x v => Host.reduceAdd x v reducesTo_S4x4096x4096_S4x4096_d2 h_S_ : (⟨S4x4096x4096, .f32⟩ : BufTy).Contents (Elt F) → (⟨S_, .f32⟩ : BufTy).Contents (Elt F) → (⟨S4x4096, .f32⟩ : BufTy).Contents (Elt F)),
    unary main_call0_v1 main_call0_v2 (broadcastInDim S4x4096x1 ![0, 1] bcast_S4x4096_S4x4096x1_0_1 : (⟨S4x4096, .f32⟩ : BufTy).Contents (Elt F) → (⟨S4x4096x1, .f32⟩ : BufTy).Contents (Elt F)),
    unary main_call0_v2 main_v0 (Host.sqrt : (⟨S4x4096x1, .f32⟩ : BufTy).Contents (Elt F) → (⟨S4x4096x1, .f32⟩ : BufTy).Contents (Elt F)),
    nullary main_cst (constant S_ .f32 0x2B8CBCCC#32),
    unary main_cst main_v1 (broadcastInDim S4x4096x1 ![] bcast_S_S4x4096x1 : (⟨S_, .f32⟩ : BufTy).Contents (Elt F) → (⟨S4x4096x1, .f32⟩ : BufTy).Contents (Elt F)),
    binary main_v0 main_v1 main_v2 (maximumf : (⟨S4x4096x1, .f32⟩ : BufTy).Contents (Elt F) → (⟨S4x4096x1, .f32⟩ : BufTy).Contents (Elt F) → (⟨S4x4096x1, .f32⟩ : BufTy).Contents (Elt F)),
    unary main_v2 main_v3 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_arg0 main_v3 main_v4 (Host.divf : (⟨S4x4096x4096, .f32⟩ : BufTy).Contents (Elt F) → (⟨S4x4096x4096, .f32⟩ : BufTy).Contents (Elt F) → (⟨S4x4096x4096, .f32⟩ : BufTy).Contents (Elt F)),
    nullary main_cst_0 (constant S_ .f32 0x42800000#32),
    unary main_cst_0 main_v5 (broadcastInDim S4x4096x4096 ![] bcast_S_S4x4096x4096 : (⟨S_, .f32⟩ : BufTy).Contents (Elt F) → (⟨S4x4096x4096, .f32⟩ : BufTy).Contents (Elt F)),
    binary main_v4 main_v5 main_v6 (mulf : (⟨S4x4096x4096, .f32⟩ : BufTy).Contents (Elt F) → (⟨S4x4096x4096, .f32⟩ : BufTy).Contents (Elt F) → (⟨S4x4096x4096, .f32⟩ : BufTy).Contents (Elt F)) ]

/-- The buffers that the operations of `chunkA` write. -/
abbrev chunkA_W : List (Ref sig .tc) := [main_call0_v0, main_call0_cst, main_call0_v1, main_call0_v2, main_v0, main_cst, main_v1, main_v2, main_v3, main_v4, main_cst_0, main_v5, main_v6]

theorem chunkA_writes : (chunkA : List (HloOp τ sig (Elt F))).Forall fun op =>
    op.writes ⊆ (chunkA_W.map (Proc.devRef (τ := τ) .tc)).toFinset := by
  simp only [List.Forall]
  exact ⟨(by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide))⟩

/-- A buffer that `chunkA` does not write keeps its contents through it. -/
theorem chunkA_keep (W : Valuation τ sig (Elt F)) (r : Ref sig .tc) (h : r ∉ chunkA_W) :
    after (chunkA (F := F)) W (Proc.devRef .tc r) = W (Proc.devRef .tc r) :=
  after_of_writes_sub chunkA _ chunkA_writes h

/-- Operations 13–23 of the reference program, in order (an operation of an inlined function written with
    the plain builder at its literal buffers: the same operation, its function no longer moved along the
    buffers' type equations, which are identities). -/
abbrev chunkB : List (HloOp τ sig (Elt F)) :=
  [ unary main_v6 main_v7 (Host.absf : (⟨S4x4096x4096, .f32⟩ : BufTy).Contents (Elt F) → (⟨S4x4096x4096, .f32⟩ : BufTy).Contents (Elt F)),
    nullary main_cst_1 (constant S_ .f32 0xFF800000#32),
    binary main_v7 main_cst_1 main_v8 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    unary main_v8 main_v9 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_2 (constant S_ .f32 0x3727C5AC#32),
    unary main_cst_2 main_call1_v0 (id : (⟨S_, .f32⟩ : BufTy).Contents (Elt F) → (⟨S_, .f32⟩ : BufTy).Contents (Elt F)),
    unary main_call1_v0 main_call1_v1 (broadcastInDim S4x4096x1 ![] bcast_S_S4x4096x1 : (⟨S_, .f32⟩ : BufTy).Contents (Elt F) → (⟨S4x4096x1, .f32⟩ : BufTy).Contents (Elt F)),
    binary main_call1_v1 main_v9 main_v10 (maximumf : (⟨S4x4096x1, .f32⟩ : BufTy).Contents (Elt F) → (⟨S4x4096x1, .f32⟩ : BufTy).Contents (Elt F) → (⟨S4x4096x1, .f32⟩ : BufTy).Contents (Elt F)),
    nullary main_cst_3 (constant S_ .f32 0x42FE0000#32),
    unary main_cst_3 main_v11 (broadcastInDim S4x4096x1 ![] bcast_S_S4x4096x1 : (⟨S_, .f32⟩ : BufTy).Contents (Elt F) → (⟨S4x4096x1, .f32⟩ : BufTy).Contents (Elt F)),
    binary main_v11 main_v10 main_v12 (Host.divf : (⟨S4x4096x1, .f32⟩ : BufTy).Contents (Elt F) → (⟨S4x4096x1, .f32⟩ : BufTy).Contents (Elt F) → (⟨S4x4096x1, .f32⟩ : BufTy).Contents (Elt F)) ]

/-- The buffers that the operations of `chunkB` write. -/
abbrev chunkB_W : List (Ref sig .tc) := [main_v7, main_cst_1, main_v8, main_v9, main_cst_2, main_call1_v0, main_call1_v1, main_v10, main_cst_3, main_v11, main_v12]

theorem chunkB_writes : (chunkB : List (HloOp τ sig (Elt F))).Forall fun op =>
    op.writes ⊆ (chunkB_W.map (Proc.devRef (τ := τ) .tc)).toFinset := by
  simp only [List.Forall]
  exact ⟨(by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide))⟩

/-- A buffer that `chunkB` does not write keeps its contents through it. -/
theorem chunkB_keep (W : Valuation τ sig (Elt F)) (r : Ref sig .tc) (h : r ∉ chunkB_W) :
    after (chunkB (F := F)) W (Proc.devRef .tc r) = W (Proc.devRef .tc r) :=
  after_of_writes_sub chunkB _ chunkB_writes h

/-- Operations 24–38 of the reference program, in order (an operation of an inlined function written with
    the plain builder at its literal buffers: the same operation, its function no longer moved along the
    buffers' type equations, which are identities). -/
abbrev chunkC : List (HloOp τ sig (Elt F)) :=
  [ unary main_v12 main_v13 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v6 main_v13 main_v14 (mulf : (⟨S4x4096x4096, .f32⟩ : BufTy).Contents (Elt F) → (⟨S4x4096x4096, .f32⟩ : BufTy).Contents (Elt F) → (⟨S4x4096x4096, .f32⟩ : BufTy).Contents (Elt F)),
    unary main_v14 main_v15 (Host.roundeven : (⟨S4x4096x4096, .f32⟩ : BufTy).Contents (Elt F) → (⟨S4x4096x4096, .f32⟩ : BufTy).Contents (Elt F)),
    nullary main_c (constantI S_ 32 4294967168#32),
    nullary main_c_4 (constantI S_ 32 127#32),
    unary main_c main_call3_v0 (sitofp .f32 : (⟨S_, .i32⟩ : BufTy).Contents (Elt F) → (⟨S_, .f32⟩ : BufTy).Contents (Elt F)),
    unary main_call3_v0 main_call3_v1 (broadcastInDim S4x4096x4096 ![] bcast_S_S4x4096x4096 : (⟨S_, .f32⟩ : BufTy).Contents (Elt F) → (⟨S4x4096x4096, .f32⟩ : BufTy).Contents (Elt F)),
    binary main_call3_v1 main_v15 main_call3_v2 (maximumf : (⟨S4x4096x4096, .f32⟩ : BufTy).Contents (Elt F) → (⟨S4x4096x4096, .f32⟩ : BufTy).Contents (Elt F) → (⟨S4x4096x4096, .f32⟩ : BufTy).Contents (Elt F)),
    unary main_c_4 main_call3_v3 (sitofp .f32 : (⟨S_, .i32⟩ : BufTy).Contents (Elt F) → (⟨S_, .f32⟩ : BufTy).Contents (Elt F)),
    unary main_call3_v3 main_call3_v4 (broadcastInDim S4x4096x4096 ![] bcast_S_S4x4096x4096 : (⟨S_, .f32⟩ : BufTy).Contents (Elt F) → (⟨S4x4096x4096, .f32⟩ : BufTy).Contents (Elt F)),
    binary main_call3_v4 main_call3_v2 main_v16 (minimumf : (⟨S4x4096x4096, .f32⟩ : BufTy).Contents (Elt F) → (⟨S4x4096x4096, .f32⟩ : BufTy).Contents (Elt F) → (⟨S4x4096x4096, .f32⟩ : BufTy).Contents (Elt F)),
    unary main_v12 main_v17 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v16 main_v17 main_v18 (Host.divf : (⟨S4x4096x4096, .f32⟩ : BufTy).Contents (Elt F) → (⟨S4x4096x4096, .f32⟩ : BufTy).Contents (Elt F) → (⟨S4x4096x4096, .f32⟩ : BufTy).Contents (Elt F)),
    binary main_v18 main_v6 main_v19 (subf : (⟨S4x4096x4096, .f32⟩ : BufTy).Contents (Elt F) → (⟨S4x4096x4096, .f32⟩ : BufTy).Contents (Elt F) → (⟨S4x4096x4096, .f32⟩ : BufTy).Contents (Elt F)),
    binary main_v6 main_v19 main_v20 (addf : (⟨S4x4096x4096, .f32⟩ : BufTy).Contents (Elt F) → (⟨S4x4096x4096, .f32⟩ : BufTy).Contents (Elt F) → (⟨S4x4096x4096, .f32⟩ : BufTy).Contents (Elt F)) ]

/-- The buffers that the operations of `chunkC` write. -/
abbrev chunkC_W : List (Ref sig .tc) := [main_v13, main_v14, main_v15, main_c, main_c_4, main_call3_v0, main_call3_v1, main_call3_v2, main_call3_v3, main_call3_v4, main_v16, main_v17, main_v18, main_v19, main_v20]

theorem chunkC_writes : (chunkC : List (HloOp τ sig (Elt F))).Forall fun op =>
    op.writes ⊆ (chunkC_W.map (Proc.devRef (τ := τ) .tc)).toFinset := by
  simp only [List.Forall]
  exact ⟨(by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide))⟩

/-- A buffer that `chunkC` does not write keeps its contents through it. -/
theorem chunkC_keep (W : Valuation τ sig (Elt F)) (r : Ref sig .tc) (h : r ∉ chunkC_W) :
    after (chunkC (F := F)) W (Proc.devRef .tc r) = W (Proc.devRef .tc r) :=
  after_of_writes_sub chunkC _ chunkC_writes h

/-- Operations 39–48 of the reference program, in order (an operation of an inlined function written with
    the plain builder at its literal buffers: the same operation, its function no longer moved along the
    buffers' type equations, which are identities). -/
abbrev chunkD : List (HloOp τ sig (Elt F)) :=
  [ unary main_arg1 main_v21 (Host.absf : (⟨S8x4096, .f32⟩ : BufTy).Contents (Elt F) → (⟨S8x4096, .f32⟩ : BufTy).Contents (Elt F)),
    nullary main_cst_5 (constant S_ .f32 0x00000000#32),
    binary main_v21 main_cst_5 main_v22 ((fun x v => Host.reduceAdd x v reducesTo_S8x4096_S_d0_1 h_S_) : (⟨S8x4096, .f32⟩ : BufTy).Contents (Elt F) → (⟨S_, .f32⟩ : BufTy).Contents (Elt F) → (⟨S_, .f32⟩ : BufTy).Contents (Elt F)),
    nullary main_cst_6 (constant S_ .f32 0x47000000#32),
    binary main_v22 main_cst_6 main_v23 (Host.divf : (⟨S_, .f32⟩ : BufTy).Contents (Elt F) → (⟨S_, .f32⟩ : BufTy).Contents (Elt F) → (⟨S_, .f32⟩ : BufTy).Contents (Elt F)),
    nullary main_cst_7 (constant S_ .f32 0x3727C5AC#32),
    unary main_cst_7 main_call4_v0 (id : (⟨S_, .f32⟩ : BufTy).Contents (Elt F) → (⟨S_, .f32⟩ : BufTy).Contents (Elt F)),
    binary main_call4_v0 main_v23 main_v24 (maximumf : (⟨S_, .f32⟩ : BufTy).Contents (Elt F) → (⟨S_, .f32⟩ : BufTy).Contents (Elt F) → (⟨S_, .f32⟩ : BufTy).Contents (Elt F)),
    nullary main_cst_8 (constant S_ .f32 0x3F800000#32),
    binary main_cst_8 main_v24 main_v25 (Host.divf : (⟨S_, .f32⟩ : BufTy).Contents (Elt F) → (⟨S_, .f32⟩ : BufTy).Contents (Elt F) → (⟨S_, .f32⟩ : BufTy).Contents (Elt F)) ]

/-- The buffers that the operations of `chunkD` write. -/
abbrev chunkD_W : List (Ref sig .tc) := [main_v21, main_cst_5, main_v22, main_cst_6, main_v23, main_cst_7, main_call4_v0, main_v24, main_cst_8, main_v25]

theorem chunkD_writes : (chunkD : List (HloOp τ sig (Elt F))).Forall fun op =>
    op.writes ⊆ (chunkD_W.map (Proc.devRef (τ := τ) .tc)).toFinset := by
  simp only [List.Forall]
  exact ⟨(by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide))⟩

/-- A buffer that `chunkD` does not write keeps its contents through it. -/
theorem chunkD_keep (W : Valuation τ sig (Elt F)) (r : Ref sig .tc) (h : r ∉ chunkD_W) :
    after (chunkD (F := F)) W (Proc.devRef .tc r) = W (Proc.devRef .tc r) :=
  after_of_writes_sub chunkD _ chunkD_writes h

/-- Operations 49–63 of the reference program, in order (an operation of an inlined function written with
    the plain builder at its literal buffers: the same operation, its function no longer moved along the
    buffers' type equations, which are identities). -/
abbrev chunkE : List (HloOp τ sig (Elt F)) :=
  [ unary main_v25 main_v26 (broadcastInDim S8x4096 ![] bcast_S_S8x4096 : (⟨S_, .f32⟩ : BufTy).Contents (Elt F) → (⟨S8x4096, .f32⟩ : BufTy).Contents (Elt F)),
    binary main_arg1 main_v26 main_v27 (mulf : (⟨S8x4096, .f32⟩ : BufTy).Contents (Elt F) → (⟨S8x4096, .f32⟩ : BufTy).Contents (Elt F) → (⟨S8x4096, .f32⟩ : BufTy).Contents (Elt F)),
    unary main_v27 main_v28 (Host.roundeven : (⟨S8x4096, .f32⟩ : BufTy).Contents (Elt F) → (⟨S8x4096, .f32⟩ : BufTy).Contents (Elt F)),
    nullary main_c_9 (constantI S_ 32 4294967295#32),
    nullary main_c_10 (constantI S_ 32 1#32),
    unary main_c_9 main_call6_v0 (sitofp .f32 : (⟨S_, .i32⟩ : BufTy).Contents (Elt F) → (⟨S_, .f32⟩ : BufTy).Contents (Elt F)),
    unary main_call6_v0 main_call6_v1 (broadcastInDim S8x4096 ![] bcast_S_S8x4096 : (⟨S_, .f32⟩ : BufTy).Contents (Elt F) → (⟨S8x4096, .f32⟩ : BufTy).Contents (Elt F)),
    binary main_call6_v1 main_v28 main_call6_v2 (maximumf : (⟨S8x4096, .f32⟩ : BufTy).Contents (Elt F) → (⟨S8x4096, .f32⟩ : BufTy).Contents (Elt F) → (⟨S8x4096, .f32⟩ : BufTy).Contents (Elt F)),
    unary main_c_10 main_call6_v3 (sitofp .f32 : (⟨S_, .i32⟩ : BufTy).Contents (Elt F) → (⟨S_, .f32⟩ : BufTy).Contents (Elt F)),
    unary main_call6_v3 main_call6_v4 (broadcastInDim S8x4096 ![] bcast_S_S8x4096 : (⟨S_, .f32⟩ : BufTy).Contents (Elt F) → (⟨S8x4096, .f32⟩ : BufTy).Contents (Elt F)),
    binary main_call6_v4 main_call6_v2 main_v29 (minimumf : (⟨S8x4096, .f32⟩ : BufTy).Contents (Elt F) → (⟨S8x4096, .f32⟩ : BufTy).Contents (Elt F) → (⟨S8x4096, .f32⟩ : BufTy).Contents (Elt F)),
    unary main_v25 main_v30 (broadcastInDim S8x4096 ![] bcast_S_S8x4096 : (⟨S_, .f32⟩ : BufTy).Contents (Elt F) → (⟨S8x4096, .f32⟩ : BufTy).Contents (Elt F)),
    binary main_v29 main_v30 main_v31 (Host.divf : (⟨S8x4096, .f32⟩ : BufTy).Contents (Elt F) → (⟨S8x4096, .f32⟩ : BufTy).Contents (Elt F) → (⟨S8x4096, .f32⟩ : BufTy).Contents (Elt F)),
    binary main_v31 main_arg1 main_v32 (subf : (⟨S8x4096, .f32⟩ : BufTy).Contents (Elt F) → (⟨S8x4096, .f32⟩ : BufTy).Contents (Elt F) → (⟨S8x4096, .f32⟩ : BufTy).Contents (Elt F)),
    binary main_arg1 main_v32 main_v33 (addf : (⟨S8x4096, .f32⟩ : BufTy).Contents (Elt F) → (⟨S8x4096, .f32⟩ : BufTy).Contents (Elt F) → (⟨S8x4096, .f32⟩ : BufTy).Contents (Elt F)) ]

/-- The buffers that the operations of `chunkE` write. -/
abbrev chunkE_W : List (Ref sig .tc) := [main_v26, main_v27, main_v28, main_c_9, main_c_10, main_call6_v0, main_call6_v1, main_call6_v2, main_call6_v3, main_call6_v4, main_v29, main_v30, main_v31, main_v32, main_v33]

theorem chunkE_writes : (chunkE : List (HloOp τ sig (Elt F))).Forall fun op =>
    op.writes ⊆ (chunkE_W.map (Proc.devRef (τ := τ) .tc)).toFinset := by
  simp only [List.Forall]
  exact ⟨(by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide))⟩

/-- A buffer that `chunkE` does not write keeps its contents through it. -/
theorem chunkE_keep (W : Valuation τ sig (Elt F)) (r : Ref sig .tc) (h : r ∉ chunkE_W) :
    after (chunkE (F := F)) W (Proc.devRef .tc r) = W (Proc.devRef .tc r) :=
  after_of_writes_sub chunkE _ chunkE_writes h

/-- Operations 64–67 of the reference program, in order (an operation of an inlined function written with
    the plain builder at its literal buffers: the same operation, its function no longer moved along the
    buffers' type equations, which are identities). -/
abbrev chunkF : List (HloOp τ sig (Elt F)) :=
  [ binary main_v20 main_v33 main_v34 ((fun l r => Host.dotGeneral dot_S4x4096x4096_S8x4096_S4x4096x8_2_1_01_0_n_n none l r) : (⟨S4x4096x4096, .f32⟩ : BufTy).Contents (Elt F) → (⟨S8x4096, .f32⟩ : BufTy).Contents (Elt F) → (⟨S4x4096x8, .f32⟩ : BufTy).Contents (Elt F)),
    unary main_arg2 main_v35 (broadcastInDim S1x1x8 ![2] bcast_S8_S1x1x8_2 : (⟨S8, .f32⟩ : BufTy).Contents (Elt F) → (⟨S1x1x8, .f32⟩ : BufTy).Contents (Elt F)),
    unary main_v35 main_v36 (broadcastInDim S4x4096x8 ![0, 1, 2] bcast_S1x1x8_S4x4096x8_0_1_2 : (⟨S1x1x8, .f32⟩ : BufTy).Contents (Elt F) → (⟨S4x4096x8, .f32⟩ : BufTy).Contents (Elt F)),
    binary main_v34 main_v36 main_v37 (addf : (⟨S4x4096x8, .f32⟩ : BufTy).Contents (Elt F) → (⟨S4x4096x8, .f32⟩ : BufTy).Contents (Elt F) → (⟨S4x4096x8, .f32⟩ : BufTy).Contents (Elt F)) ]

/-- The buffers that the operations of `chunkF` write. -/
abbrev chunkF_W : List (Ref sig .tc) := [main_v34, main_v35, main_v36, main_v37]

theorem chunkF_writes : (chunkF : List (HloOp τ sig (Elt F))).Forall fun op =>
    op.writes ⊆ (chunkF_W.map (Proc.devRef (τ := τ) .tc)).toFinset := by
  simp only [List.Forall]
  exact ⟨(by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide))⟩

/-- A buffer that `chunkF` does not write keeps its contents through it. -/
theorem chunkF_keep (W : Valuation τ sig (Elt F)) (r : Ref sig .tc) (h : r ∉ chunkF_W) :
    after (chunkF (F := F)) W (Proc.devRef .tc r) = W (Proc.devRef .tc r) :=
  after_of_writes_sub chunkF _ chunkF_writes h

/-- Operations 68–81 of the reference program, in order (an operation of an inlined function written with
    the plain builder at its literal buffers: the same operation, its function no longer moved along the
    buffers' type equations, which are identities). -/
abbrev chunkG : List (HloOp τ sig (Elt F)) :=
  [ nullary main_cst_11 (constant S_ .f32 0xFF800000#32),
    binary main_v37 main_cst_11 main_v38 ((fun x v => Host.reduce FloatOps.maximumf x v reducesTo_S4x4096x8_S4x4096_d2 h_S_) : (⟨S4x4096x8, .f32⟩ : BufTy).Contents (Elt F) → (⟨S_, .f32⟩ : BufTy).Contents (Elt F) → (⟨S4x4096, .f32⟩ : BufTy).Contents (Elt F)),
    nullary main_cst_12 (constant S_ .f32 0xFF800000#32),
    unary main_cst_12 main_v39 (broadcastInDim S4x4096 ![] bcast_S_S4x4096 : (⟨S_, .f32⟩ : BufTy).Contents (Elt F) → (⟨S4x4096, .f32⟩ : BufTy).Contents (Elt F)),
    binary main_v39 main_v38 main_v40 (maximumf : (⟨S4x4096, .f32⟩ : BufTy).Contents (Elt F) → (⟨S4x4096, .f32⟩ : BufTy).Contents (Elt F) → (⟨S4x4096, .f32⟩ : BufTy).Contents (Elt F)),
    unary main_v40 main_v41 (broadcastInDim S4x4096x1 ![0, 1] bcast_S4x4096_S4x4096x1_0_1 : (⟨S4x4096, .f32⟩ : BufTy).Contents (Elt F) → (⟨S4x4096x1, .f32⟩ : BufTy).Contents (Elt F)),
    unary main_v41 main_v42 (broadcastInDim S4x4096x8 ![0, 1, 2] bcast_S4x4096x1_S4x4096x8_0_1_2 : (⟨S4x4096x1, .f32⟩ : BufTy).Contents (Elt F) → (⟨S4x4096x8, .f32⟩ : BufTy).Contents (Elt F)),
    binary main_v37 main_v42 main_v43 (subf : (⟨S4x4096x8, .f32⟩ : BufTy).Contents (Elt F) → (⟨S4x4096x8, .f32⟩ : BufTy).Contents (Elt F) → (⟨S4x4096x8, .f32⟩ : BufTy).Contents (Elt F)),
    unary main_v43 main_v44 (Host.exp : (⟨S4x4096x8, .f32⟩ : BufTy).Contents (Elt F) → (⟨S4x4096x8, .f32⟩ : BufTy).Contents (Elt F)),
    nullary main_cst_13 (constant S_ .f32 0x00000000#32),
    binary main_v44 main_cst_13 main_v45 ((fun x v => Host.reduceAdd x v reducesTo_S4x4096x8_S4x4096_d2 h_S_) : (⟨S4x4096x8, .f32⟩ : BufTy).Contents (Elt F) → (⟨S_, .f32⟩ : BufTy).Contents (Elt F) → (⟨S4x4096, .f32⟩ : BufTy).Contents (Elt F)),
    unary main_v45 main_v46 (broadcastInDim S4x4096x1 ![0, 1] bcast_S4x4096_S4x4096x1_0_1 : (⟨S4x4096, .f32⟩ : BufTy).Contents (Elt F) → (⟨S4x4096x1, .f32⟩ : BufTy).Contents (Elt F)),
    unary main_v46 main_v47 (broadcastInDim S4x4096x8 ![0, 1, 2] bcast_S4x4096x1_S4x4096x8_0_1_2 : (⟨S4x4096x1, .f32⟩ : BufTy).Contents (Elt F) → (⟨S4x4096x8, .f32⟩ : BufTy).Contents (Elt F)),
    binary main_v44 main_v47 main_v48 (Host.divf : (⟨S4x4096x8, .f32⟩ : BufTy).Contents (Elt F) → (⟨S4x4096x8, .f32⟩ : BufTy).Contents (Elt F) → (⟨S4x4096x8, .f32⟩ : BufTy).Contents (Elt F)) ]

/-- The buffers that the operations of `chunkG` write. -/
abbrev chunkG_W : List (Ref sig .tc) := [main_cst_11, main_v38, main_cst_12, main_v39, main_v40, main_v41, main_v42, main_v43, main_v44, main_cst_13, main_v45, main_v46, main_v47, main_v48]

theorem chunkG_writes : (chunkG : List (HloOp τ sig (Elt F))).Forall fun op =>
    op.writes ⊆ (chunkG_W.map (Proc.devRef (τ := τ) .tc)).toFinset := by
  simp only [List.Forall]
  exact ⟨(by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide)),
    (by simp only [nullary_writes, unary_writes, binary_writes, Finset.singleton_subset_iff, List.mem_toFinset]; exact List.mem_map_of_mem (by decide))⟩

/-- A buffer that `chunkG` does not write keeps its contents through it. -/
theorem chunkG_keep (W : Valuation τ sig (Elt F)) (r : Ref sig .tc) (h : r ∉ chunkG_W) :
    after (chunkG (F := F)) W (Proc.devRef .tc r) = W (Proc.devRef .tc r) :=
  after_of_writes_sub chunkG _ chunkG_writes h

/-- The reference program's operation list is the seven chunks in a row. -/
theorem ops_eq : (Cert.ReferenceIdeal.RunP.ops : List (HloOp τ sig (Elt F)))
    = chunkA ++ (chunkB ++ (chunkC ++ (chunkD ++ (chunkE ++ (chunkF ++ chunkG))))) := rfl

/-- The fold of the whole program is the chunks' folds, one after the other. -/
theorem after_ops (V : Valuation τ sig (Elt F)) :
    after (Cert.ReferenceIdeal.RunP.ops (F := F)) V
      = after chunkG (after chunkF (after chunkE (after chunkD (after chunkC (after chunkB (after chunkA V)))))) := by
  rw [ops_eq, after_append, after_append, after_append, after_append, after_append, after_append]

/-- From any contents in which the buffers `chunkA` reads hold their stages, `main_v6` holds its stage after it. -/
theorem chunkA_v6 (W : Valuation τ sig (Elt F)) (x0 : (⟨S4x4096x4096, .f32⟩ : BufTy).Contents (Elt F))
    (h0 : W (Proc.devRef .tc main_arg0) = x0) :
    after (chunkA (F := F)) W (Proc.devRef .tc main_v6) = ReadP.val_main_v6 (F := F) x0 := by
  after_results
  rw [h0]
  rfl

/-- From any contents in which the buffers `chunkB` reads hold their stages, `main_v12` holds its stage after it. -/
theorem chunkB_v12 (W : Valuation τ sig (Elt F)) (x0 : (⟨S4x4096x4096, .f32⟩ : BufTy).Contents (Elt F))
    (h6 : W (Proc.devRef .tc main_v6) = ReadP.val_main_v6 x0) :
    after (chunkB (F := F)) W (Proc.devRef .tc main_v12) = ReadP.val_main_v12 (F := F) x0 := by
  after_results
  rw [h6]
  rfl

/-- From any contents in which the buffers `chunkC` reads hold their stages, `main_v20` holds its stage after it. -/
theorem chunkC_v20 (W : Valuation τ sig (Elt F)) (x0 : (⟨S4x4096x4096, .f32⟩ : BufTy).Contents (Elt F))
    (h6 : W (Proc.devRef .tc main_v6) = ReadP.val_main_v6 x0)
    (h12 : W (Proc.devRef .tc main_v12) = ReadP.val_main_v12 x0) :
    after (chunkC (F := F)) W (Proc.devRef .tc main_v20) = ReadP.val_main_v20 (F := F) x0 := by
  after_results
  rw [h6, h12]
  rfl

/-- From any contents in which the buffers `chunkD` reads hold their stages, `main_v25` holds its stage after it. -/
theorem chunkD_v25 (W : Valuation τ sig (Elt F)) (x1 : (⟨S8x4096, .f32⟩ : BufTy).Contents (Elt F))
    (h1 : W (Proc.devRef .tc main_arg1) = x1) :
    after (chunkD (F := F)) W (Proc.devRef .tc main_v25) = ReadP.val_main_v25 (F := F) x1 := by
  after_results
  rw [h1]
  rfl

/-- From any contents in which the buffers `chunkE` reads hold their stages, `main_v33` holds its stage after it. -/
theorem chunkE_v33 (W : Valuation τ sig (Elt F)) (x1 : (⟨S8x4096, .f32⟩ : BufTy).Contents (Elt F))
    (h1 : W (Proc.devRef .tc main_arg1) = x1)
    (h25 : W (Proc.devRef .tc main_v25) = ReadP.val_main_v25 x1) :
    after (chunkE (F := F)) W (Proc.devRef .tc main_v33) = ReadP.val_main_v33 (F := F) x1 := by
  after_results_simp
  rw [h1, h25]
  rfl

/-- From any contents in which the buffers `chunkF` reads hold their stages, `main_v37` holds its stage after it. -/
theorem chunkF_v37 (W : Valuation τ sig (Elt F)) (x0 : (⟨S4x4096x4096, .f32⟩ : BufTy).Contents (Elt F)) (x1 : (⟨S8x4096, .f32⟩ : BufTy).Contents (Elt F)) (x2 : (⟨S8, .f32⟩ : BufTy).Contents (Elt F))
    (h20 : W (Proc.devRef .tc main_v20) = ReadP.val_main_v20 x0)
    (h33 : W (Proc.devRef .tc main_v33) = ReadP.val_main_v33 x1)
    (h2 : W (Proc.devRef .tc main_arg2) = x2) :
    after (chunkF (F := F)) W (Proc.devRef .tc main_v37) = ReadP.val_main_v37 (F := F) x0 x1 x2 := by
  after_results
  rw [h20, h33, h2]
  rfl

/-- From any contents in which the buffers `chunkG` reads hold their stages, `main_v48` holds its stage after it. -/
theorem chunkG_v48 (W : Valuation τ sig (Elt F)) (x0 : (⟨S4x4096x4096, .f32⟩ : BufTy).Contents (Elt F)) (x1 : (⟨S8x4096, .f32⟩ : BufTy).Contents (Elt F)) (x2 : (⟨S8, .f32⟩ : BufTy).Contents (Elt F))
    (h37 : W (Proc.devRef .tc main_v37) = ReadP.val_main_v37 x0 x1 x2) :
    after (chunkG (F := F)) W (Proc.devRef .tc main_v48) = ReadP.val_main_v48 (F := F) x0 x1 x2 := by
  after_results
  rw [h37]
  rfl

/-- The reference program's result buffer holds the last stage, read at the contents of the three arguments: each
    chunk takes the stages it reads (carried through the chunks that do not write them) to the stage it is
    needed for. -/
theorem after_v48 (V : Valuation τ sig (Elt Ideal)) :
    after (Cert.ReferenceIdeal.RunP.ops (F := Ideal)) V (Proc.devRef .tc main_v48)
      = Cert.ReferenceIdeal.ReadP.val_main_v48 (F := Ideal) (V (Proc.devRef .tc main_arg0)) (V (Proc.devRef .tc main_arg1)) (V (Proc.devRef .tc main_arg2)) := by
  rw [after_ops]
  -- after the first chunk
  have a6 := chunkA_v6 V _ rfl
  have a1 := chunkA_keep V main_arg1 (by decide)
  have a2 := chunkA_keep V main_arg2 (by decide)
  -- after the second
  have b12 := chunkB_v12 (after (chunkA (F := Ideal)) V) _ a6
  have b6 := (chunkB_keep (after (chunkA (F := Ideal)) V) main_v6 (by decide)).trans a6
  have b1 := (chunkB_keep (after (chunkA (F := Ideal)) V) main_arg1 (by decide)).trans a1
  have b2 := (chunkB_keep (after (chunkA (F := Ideal)) V) main_arg2 (by decide)).trans a2
  -- after the third
  have c20 := chunkC_v20 (after (chunkB (F := Ideal)) (after (chunkA (F := Ideal)) V)) _ b6 b12
  have c1 := (chunkC_keep (after (chunkB (F := Ideal)) (after (chunkA (F := Ideal)) V)) main_arg1 (by decide)).trans b1
  have c2 := (chunkC_keep (after (chunkB (F := Ideal)) (after (chunkA (F := Ideal)) V)) main_arg2 (by decide)).trans b2
  -- after the fourth
  have d25 := chunkD_v25 (after (chunkC (F := Ideal)) (after (chunkB (F := Ideal)) (after (chunkA (F := Ideal)) V))) _ c1
  have d20 := (chunkD_keep (after (chunkC (F := Ideal)) (after (chunkB (F := Ideal)) (after (chunkA (F := Ideal)) V))) main_v20 (by decide)).trans c20
  have d1 := (chunkD_keep (after (chunkC (F := Ideal)) (after (chunkB (F := Ideal)) (after (chunkA (F := Ideal)) V))) main_arg1 (by decide)).trans c1
  have d2 := (chunkD_keep (after (chunkC (F := Ideal)) (after (chunkB (F := Ideal)) (after (chunkA (F := Ideal)) V))) main_arg2 (by decide)).trans c2
  -- after the fifth
  have e33 := chunkE_v33 (after (chunkD (F := Ideal)) (after (chunkC (F := Ideal)) (after (chunkB (F := Ideal)) (after (chunkA (F := Ideal)) V)))) _ d1 d25
  have e20 := (chunkE_keep (after (chunkD (F := Ideal)) (after (chunkC (F := Ideal)) (after (chunkB (F := Ideal)) (after (chunkA (F := Ideal)) V)))) main_v20 (by decide)).trans d20
  have e2 := (chunkE_keep (after (chunkD (F := Ideal)) (after (chunkC (F := Ideal)) (after (chunkB (F := Ideal)) (after (chunkA (F := Ideal)) V)))) main_arg2 (by decide)).trans d2
  -- after the sixth, and the last
  have f37 := chunkF_v37 (after (chunkE (F := Ideal)) (after (chunkD (F := Ideal)) (after (chunkC (F := Ideal)) (after (chunkB (F := Ideal)) (after (chunkA (F := Ideal)) V))))) _ _ _ e20 e33 e2
  exact chunkG_v48 (after (chunkF (F := Ideal)) (after (chunkE (F := Ideal)) (after (chunkD (F := Ideal)) (after (chunkC (F := Ideal)) (after (chunkB (F := Ideal)) (after (chunkA (F := Ideal)) V)))))) _ _ _ f37

/-- No operation writes the program's argument 0: it keeps its contents through the whole program. -/
theorem after_arg0 (V : Valuation τ sig (Elt Ideal)) :
    after (Cert.ReferenceIdeal.RunP.ops (F := Ideal)) V (Proc.devRef .tc main_arg0) = V (Proc.devRef .tc main_arg0) := by
  rw [after_ops]
  exact (chunkG_keep (after (chunkF (F := Ideal)) (after (chunkE (F := Ideal)) (after (chunkD (F := Ideal)) (after (chunkC (F := Ideal)) (after (chunkB (F := Ideal)) (after (chunkA (F := Ideal)) V)))))) main_arg0 (by decide)).trans ((chunkF_keep (after (chunkE (F := Ideal)) (after (chunkD (F := Ideal)) (after (chunkC (F := Ideal)) (after (chunkB (F := Ideal)) (after (chunkA (F := Ideal)) V))))) main_arg0 (by decide)).trans ((chunkE_keep (after (chunkD (F := Ideal)) (after (chunkC (F := Ideal)) (after (chunkB (F := Ideal)) (after (chunkA (F := Ideal)) V)))) main_arg0 (by decide)).trans ((chunkD_keep (after (chunkC (F := Ideal)) (after (chunkB (F := Ideal)) (after (chunkA (F := Ideal)) V))) main_arg0 (by decide)).trans ((chunkC_keep (after (chunkB (F := Ideal)) (after (chunkA (F := Ideal)) V)) main_arg0 (by decide)).trans ((chunkB_keep (after (chunkA (F := Ideal)) V) main_arg0 (by decide)).trans (chunkA_keep V main_arg0 (by decide)))))))

/-- No operation writes the program's argument 1: it keeps its contents through the whole program. -/
theorem after_arg1 (V : Valuation τ sig (Elt Ideal)) :
    after (Cert.ReferenceIdeal.RunP.ops (F := Ideal)) V (Proc.devRef .tc main_arg1) = V (Proc.devRef .tc main_arg1) := by
  rw [after_ops]
  exact (chunkG_keep (after (chunkF (F := Ideal)) (after (chunkE (F := Ideal)) (after (chunkD (F := Ideal)) (after (chunkC (F := Ideal)) (after (chunkB (F := Ideal)) (after (chunkA (F := Ideal)) V)))))) main_arg1 (by decide)).trans ((chunkF_keep (after (chunkE (F := Ideal)) (after (chunkD (F := Ideal)) (after (chunkC (F := Ideal)) (after (chunkB (F := Ideal)) (after (chunkA (F := Ideal)) V))))) main_arg1 (by decide)).trans ((chunkE_keep (after (chunkD (F := Ideal)) (after (chunkC (F := Ideal)) (after (chunkB (F := Ideal)) (after (chunkA (F := Ideal)) V)))) main_arg1 (by decide)).trans ((chunkD_keep (after (chunkC (F := Ideal)) (after (chunkB (F := Ideal)) (after (chunkA (F := Ideal)) V))) main_arg1 (by decide)).trans ((chunkC_keep (after (chunkB (F := Ideal)) (after (chunkA (F := Ideal)) V)) main_arg1 (by decide)).trans ((chunkB_keep (after (chunkA (F := Ideal)) V) main_arg1 (by decide)).trans (chunkA_keep V main_arg1 (by decide)))))))

/-- No operation writes the program's argument 2: it keeps its contents through the whole program. -/
theorem after_arg2 (V : Valuation τ sig (Elt Ideal)) :
    after (Cert.ReferenceIdeal.RunP.ops (F := Ideal)) V (Proc.devRef .tc main_arg2) = V (Proc.devRef .tc main_arg2) := by
  rw [after_ops]
  exact (chunkG_keep (after (chunkF (F := Ideal)) (after (chunkE (F := Ideal)) (after (chunkD (F := Ideal)) (after (chunkC (F := Ideal)) (after (chunkB (F := Ideal)) (after (chunkA (F := Ideal)) V)))))) main_arg2 (by decide)).trans ((chunkF_keep (after (chunkE (F := Ideal)) (after (chunkD (F := Ideal)) (after (chunkC (F := Ideal)) (after (chunkB (F := Ideal)) (after (chunkA (F := Ideal)) V))))) main_arg2 (by decide)).trans ((chunkE_keep (after (chunkD (F := Ideal)) (after (chunkC (F := Ideal)) (after (chunkB (F := Ideal)) (after (chunkA (F := Ideal)) V)))) main_arg2 (by decide)).trans ((chunkD_keep (after (chunkC (F := Ideal)) (after (chunkB (F := Ideal)) (after (chunkA (F := Ideal)) V))) main_arg2 (by decide)).trans ((chunkC_keep (after (chunkB (F := Ideal)) (after (chunkA (F := Ideal)) V)) main_arg2 (by decide)).trans ((chunkB_keep (after (chunkA (F := Ideal)) V) main_arg2 (by decide)).trans (chunkA_keep V main_arg2 (by decide)))))))

end Cert.ReferenceIdeal.Stages

end
-- ==== Proof.GateMath.lean ====
/-
  The two logits of the token router agree on finite inputs.

  Everything is a computation with real numbers sitting inside the extended reals. The literals are evaluated from
  their bit patterns. For a row of real entries the norm floor makes the normalising factor a positive real `r`, so
  normalising the row is multiplying it by `r`; multiplication by a positive real commutes with the absolute value
  and with a maximum taken from `⊥`, hence the two activation scales are the same positive real and — multiplication
  of extended reals being associative — the two quantised activations are the same real. With every quantity real,
  `y + (z - y) = z`, so a de-quantised factor is the quantised one over its scale, and the sum of the products of the
  two quotients is the integer product times the reciprocal weight scale over the activation scale.
-/
import proofs.«131756_j74371653697964_2_alg».proof.Proof.Gate
import Mathlib.Tactic

noncomputable section

namespace Cert.Gate

open Idealize.ShloMosaic

/-! ## The literals as real numbers -/

theorem c64_eq : c64 = ((64 : ℝ) : EReal) := by
  simp [c64, Ideal.ofBits, Ideal.ieee]
  rw [← EReal.coe_mul]; congr 1; norm_num

theorem c127_eq : c127 = ((127 : ℝ) : EReal) := by
  simp [c127, Ideal.ofBits, Ideal.ieee]
  rw [← EReal.coe_mul]; congr 1; norm_num

theorem cNeg128_eq : cNeg128 = ((-128 : ℝ) : EReal) := by
  simp [cNeg128, Ideal.ofBits, Ideal.ieee]
  rw [← EReal.coe_mul]; congr 1; norm_num

theorem cOne_eq : cOne = ((1 : ℝ) : EReal) := by
  simp [cOne, Ideal.ofBits, Ideal.ieee]
  rw [← EReal.coe_mul, ← EReal.coe_one]; congr 1; norm_num

theorem cNegOne_eq : cNegOne = ((-1 : ℝ) : EReal) := by
  simp [cNegOne, Ideal.ofBits, Ideal.ieee]
  rw [← EReal.coe_mul, ← EReal.coe_one]; congr 1; norm_num

theorem c32768_eq : c32768 = ((32768 : ℝ) : EReal) := by
  simp [c32768, Ideal.ofBits, Ideal.ieee]
  rw [← EReal.coe_mul]; congr 1; norm_num

/-- The pattern of zero denotes zero. -/
theorem zeroW_eq : zeroW = 0 := by
  simp [zeroW, Ideal.ofBits, Ideal.ieee]

/-- The norm floor is a positive real. -/
theorem tiny_eq : ∃ t : ℝ, 0 < t ∧ tiny = (t : EReal) := by
  simp [tiny, Ideal.ofBits, Ideal.ieee]
  exact ⟨_, by positivity, (EReal.coe_mul _ _).symm⟩

/-- The floor under a maximum or a mean is a positive real. -/
theorem eps_eq : ∃ p : ℝ, 0 < p ∧ eps = (p : EReal) := by
  simp [eps, Ideal.ofBits, Ideal.ieee]
  exact ⟨_, by positivity, (EReal.coe_mul _ _).symm⟩

/-! The integer literals, read as signed 32-bit integers, are the same numbers as the float literals. -/

theorem sitofp_neg128 : (((4294967168#32 : BitVec 32).toInt : ℝ) : EReal) = cNeg128 := by
  simp [cNeg128_eq]

theorem sitofp_127 : (((127#32 : BitVec 32).toInt : ℝ) : EReal) = c127 := by
  simp [c127_eq]

theorem sitofp_negOne : (((4294967295#32 : BitVec 32).toInt : ℝ) : EReal) = cNegOne := by
  simp [cNegOne_eq]

theorem sitofp_one : (((1#32 : BitVec 32).toInt : ℝ) : EReal) = cOne := by
  simp [cOne_eq]

/-! ## Real and positive real extended reals -/

/-- An extended real that is a real number. -/
def IsR (a : EReal) : Prop := ∃ r : ℝ, a = (r : EReal)

/-- An extended real that is a positive real number. -/
def IsP (a : EReal) : Prop := ∃ r : ℝ, 0 < r ∧ a = (r : EReal)

theorem coe_sum' {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max' (a b : ℝ) : ((max a b : ℝ) : EReal) = max (a : EReal) (b : EReal) :=
  (EReal.coe_strictMono.monotone).map_max

theorem coe_min' (a b : ℝ) : ((min a b : ℝ) : EReal) = min (a : EReal) (b : EReal) :=
  (EReal.coe_strictMono.monotone).map_min

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.coe (r : ℝ) : IsR (r : EReal) := ⟨r, rfl⟩

theorem IsP.isR {a : EReal} (h : IsP a) : IsR a := by
  obtain ⟨r, _, e⟩ := h; exact ⟨r, e⟩

theorem IsP.ne_zero {a : EReal} (h : IsP a) : a ≠ 0 := by
  obtain ⟨r, hr, rfl⟩ := h; exact EReal.coe_ne_zero.mpr hr.ne'

theorem IsR.ne_top {a : EReal} (h : IsR a) : a ≠ ⊤ := by
  obtain ⟨r, rfl⟩ := h; exact EReal.coe_ne_top r

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.neg {a : EReal} (ha : IsR a) : IsR (-a) := by
  obtain ⟨r, rfl⟩ := ha; exact ⟨-r, (EReal.coe_neg r).symm⟩

theorem IsR.max {a b : EReal} (ha : IsR a) (hb : IsR b) : IsR (max a b) := by
  obtain ⟨r, rfl⟩ := ha; obtain ⟨s, rfl⟩ := hb; exact ⟨_, (coe_max' r s).symm⟩

theorem IsR.min {a b : EReal} (ha : IsR a) (hb : IsR b) : IsR (min a b) := by
  obtain ⟨r, rfl⟩ := ha; obtain ⟨s, rfl⟩ := hb; exact ⟨_, (coe_min' r s).symm⟩

theorem IsR.eabs {a : EReal} (ha : IsR a) : IsR (eabs a) := ha.max ha.neg

theorem IsR.rne {a : EReal} (ha : IsR a) : IsR (rne a) := by
  obtain ⟨r, rfl⟩ := ha; exact ⟨_, rfl⟩

theorem IsR.div {a b : EReal} (ha : IsR a) (hb : IsR b) (h0 : b ≠ 0) : IsR (Ideal.div a b) := by
  obtain ⟨r, rfl⟩ := ha; obtain ⟨s, rfl⟩ := hb
  exact ⟨_, div_coe_coe r s (EReal.coe_ne_zero.mp h0)⟩

theorem IsR.sum {α : Type} (s : Finset α) (f : α → EReal) (hf : ∀ i, IsR (f i)) : IsR (∑ i ∈ s, f i) := by
  choose g hg using hf
  exact ⟨∑ i ∈ s, g i, by rw [coe_sum']; exact Finset.sum_congr rfl fun i _ => hg i⟩

theorem c127_isR : IsR c127 := ⟨_, c127_eq⟩
theorem cNeg128_isR : IsR cNeg128 := ⟨_, cNeg128_eq⟩
theorem cOne_isR : IsR cOne := ⟨_, cOne_eq⟩
theorem cNegOne_isR : IsR cNegOne := ⟨_, cNegOne_eq⟩

/-- For reals `y` and `z`, `y + (z - y) = z`: this is where finiteness is needed. -/
theorem add_sub_cancel_isR (y z : EReal) (hy : IsR y) (hz : IsR z) : y + (z - y) = z := by
  obtain ⟨y', rfl⟩ := hy; obtain ⟨z', rfl⟩ := hz
  rw [← EReal.coe_sub, ← EReal.coe_add]; congr 1; ring

/-- Rounding and clamping between two reals keeps a real a real. -/
theorem clamp_isR (lo hi y : EReal) (hlo : IsR lo) (hhi : IsR hi) (hy : IsR y) : IsR (min hi (max lo (rne y))) :=
  hhi.min (hlo.max hy.rne)

/-- The larger of the floor `eps` and anything but `⊤` is a positive real. -/
theorem max_eps_pos (A : EReal) (hA : A ≠ ⊤) : IsP (max eps A) := by
  obtain ⟨p, hp, he⟩ := eps_eq
  induction A using EReal.rec with
  | bot => exact ⟨p, hp, by rw [he, max_eq_left bot_le]⟩
  | coe a => exact ⟨max p a, lt_max_of_lt_left hp, by rw [he, coe_max']⟩
  | top => exact absurd rfl hA

/-- A product with a positive real is `⊤` only if the other factor is. -/
theorem mul_coe_ne_top (A : EReal) (hA : A ≠ ⊤) (r : ℝ) (hr : 0 < r) : A * (r : EReal) ≠ ⊤ := by
  induction A using EReal.rec with
  | bot => rw [EReal.bot_mul_coe_of_pos hr]; exact bot_ne_top
  | coe a => rw [← EReal.coe_mul]; exact EReal.coe_ne_top _
  | top => exact absurd rfl hA

/-! ## Multiplication by a nonnegative real is monotone -/

theorem mul_coe_mono (r : ℝ) (hr : 0 ≤ r) : Monotone fun a : EReal => a * (r : EReal) :=
  fun _ _ h => mul_le_mul_of_nonneg_right h (EReal.coe_nonneg.mpr hr)

theorem max_mul_coe (a b : EReal) (r : ℝ) (hr : 0 ≤ r) : max a b * (r : EReal) = max (a * r) (b * r) :=
  (mul_coe_mono r hr).map_max

theorem eabs_mul_coe (a : EReal) (r : ℝ) (hr : 0 ≤ r) : eabs (a * r) = eabs a * r := by
  rw [eabs, eabs, max_mul_coe _ _ _ hr, EReal.neg_mul]

/-! ## The mean absolute weight -/

/-- The mean absolute value of finite weights is finite. -/
theorem meanAbs_real (W : SW.Idx → EReal) (hW : ∀ j, ∃ r : ℝ, W j = (r : EReal)) :
    ∃ r : ℝ, meanAbs W = (r : EReal) := by
  have h1 : IsR (∑ j : SW.Idx, eabs (W j)) := IsR.sum _ _ fun j => IsR.eabs (hW j)
  have h2 : IsR (zeroW + ∑ j : SW.Idx, eabs (W j)) := by rw [zeroW_eq, zero_add]; exact h1
  have h3 : c32768 ≠ 0 := by rw [c32768_eq]; exact EReal.coe_ne_zero.mpr (by norm_num)
  exact h2.div ⟨_, c32768_eq⟩ h3

section Row

variable {ι κ : Type} [Fintype ι] [Fintype κ]

/-! ## One row -/

/-- The floored norm of a real row is a positive real. -/
theorem normOf_pos (x : ι → EReal) (hx : ∀ d, IsR (x d)) : IsP (normOf x) := by
  choose x' hx' using hx
  obtain ⟨t, ht, htiny⟩ := tiny_eq
  have hS : (∑ d, x d * x d) = ((∑ d, x' d * x' d : ℝ) : EReal) := by
    rw [coe_sum']; refine Finset.sum_congr rfl fun d _ => ?_; rw [hx' d, EReal.coe_mul]
  have h0 : 0 ≤ ∑ d, x' d * x' d := Finset.sum_nonneg fun d _ => mul_self_nonneg _
  refine ⟨max (Real.sqrt (∑ d, x' d * x' d)) t, lt_max_of_lt_right ht, ?_⟩
  rw [normOf, hS, Ideal.sqrt_coe, if_neg (not_lt.mpr h0), htiny, coe_max']

/-- The normalising factor of a real row is a positive real. -/
theorem rK_pos (x : ι → EReal) (hx : ∀ d, IsR (x d)) : IsP (rK x) := by
  obtain ⟨M, hM, hn⟩ := normOf_pos x hx
  refine ⟨64 / M, by positivity, ?_⟩
  rw [rK, hn, c64_eq, div_coe_coe _ _ hM.ne']

/-- Normalising a real row is multiplying it by the normalising factor. -/
theorem xnR_eq (x : ι → EReal) (hx : ∀ d, IsR (x d)) (d : ι) : xnR x d = x d * rK x := by
  obtain ⟨M, hM, hn⟩ := normOf_pos x hx
  rw [xnR, rK, hn, Ideal.div_coe hM.ne', Ideal.div_coe hM.ne', mul_assoc, mul_comm (((1 / M : ℝ)) : EReal) c64]

/-- The largest absolute value, taken from `⊥`, commutes with multiplication by a positive real. -/
theorem amaxOf_mul_coe (f : ι → EReal) (r : ℝ) (hr : 0 < r) :
    amaxOf (fun d => f d * (r : EReal)) = amaxOf f * r := by
  unfold amaxOf
  simp only [eabs_mul_coe _ _ hr.le]
  have h := Finset.fold_hom (op := max) (op' := max) (s := (Finset.univ : Finset ι)) (b := (⊥ : EReal))
    (f := fun d => eabs (f d)) (m := fun a : EReal => a * (r : EReal)) (fun a b => max_mul_coe a b r hr.le)
  rwa [EReal.bot_mul_coe_of_pos hr] at h

/-- The two activation scales of a real row are the same. -/
theorem saR_eq (x : ι → EReal) (hx : ∀ d, IsR (x d)) : saR x = saK x := by
  obtain ⟨r, hr, hrK⟩ := rK_pos x hx
  have h : xnR x = fun d => x d * (r : EReal) := funext fun d => by rw [xnR_eq x hx d, hrK]
  rw [saR, saK, h, amaxOf_mul_coe _ _ hr, hrK]

/-- The two quantised activations of a real row are the same (associativity of the product). -/
theorem qR_eq (x : ι → EReal) (hx : ∀ d, IsR (x d)) (d : ι) : qR x d = qK x d := by
  rw [qR, qK, saR_eq x hx, xnR_eq x hx d, mul_assoc]

/-- The largest absolute value of a real family is not `⊤`. -/
theorem amaxOf_ne_top (f : ι → EReal) (hf : ∀ d, IsR (f d)) : amaxOf f ≠ ⊤ := by
  apply ne_of_lt
  rw [amaxOf, Finset.fold_max_lt]
  refine ⟨bot_lt_top, fun d _ => ?_⟩
  obtain ⟨r, hr⟩ := (hf d).eabs
  rw [hr]; exact EReal.coe_lt_top r

/-- The activation scale of a real row is a positive real. -/
theorem saK_pos (x : ι → EReal) (hx : ∀ d, IsR (x d)) : IsP (saK x) := by
  obtain ⟨r, hr, hrK⟩ := rK_pos x hx
  have h1 : amaxOf x * rK x ≠ ⊤ := by rw [hrK]; exact mul_coe_ne_top _ (amaxOf_ne_top x hx) r hr
  obtain ⟨m, hm, hmax⟩ := max_eps_pos _ h1
  refine ⟨127 / m, by positivity, ?_⟩
  rw [saK, hmax, c127_eq, div_coe_coe _ _ hm.ne']

/-- A quantised activation of a real row is a real. -/
theorem qK_isR (x : ι → EReal) (hx : ∀ d, IsR (x d)) (d : ι) : IsR (qK x d) :=
  clamp_isR _ _ _ cNeg128_isR c127_isR ((hx d).mul ((rK_pos x hx).isR.mul (saK_pos x hx).isR))

/-- A de-quantised activation of a real row is the quantised one over the activation scale. -/
theorem xqR_eq (x : ι → EReal) (hx : ∀ d, IsR (x d)) (d : ι) : xqR x d = Ideal.div (qK x d) (saK x) := by
  have hsa := saK_pos x hx
  have hxn : IsR (xnR x d) := by rw [xnR_eq x hx d]; exact (hx d).mul (rK_pos x hx).isR
  rw [xqR, qR_eq x hx d, saR_eq x hx]
  exact add_sub_cancel_isR _ _ hxn ((qK_isR x hx d).div hsa.isR hsa.ne_zero)

end Row

/-! ## One weight -/

/-- A quantised real weight is a real. -/
theorem wq_isR (sw w : EReal) (hsw : IsR sw) (hw : IsR w) : IsR (wq sw w) :=
  clamp_isR _ _ _ cNegOne_isR cOne_isR (hw.mul hsw)

/-- A de-quantised real weight is the quantised one over the weight scale. -/
theorem wR_eq (sw w : EReal) (hsw : IsP sw) (hw : IsR w) : wR sw w = Ideal.div (wq sw w) sw :=
  add_sub_cancel_isR _ _ hw ((wq_isR sw w hsw.isR hw).div hsw.isR hsw.ne_zero)

/-- The weight scale of a real mean is a positive real. -/
theorem sw_pos (ma : EReal) (hma : IsR ma) : IsP (Ideal.div cOne (max eps ma)) := by
  obtain ⟨m, hm, hmax⟩ := max_eps_pos ma hma.ne_top
  refine ⟨1 / m, by positivity, ?_⟩
  rw [hmax, cOne_eq, div_coe_coe _ _ hm.ne']

/-! ## The two logits -/

/-- On finite inputs the two logits are one number: with every factor real, the sum over the row of
    `(q d / sa) · (w d / s)` is `((∑ d, q d · w d) · (1 / s)) / sa`. -/
theorem logitR_eq_logitK {ι κ : Type} [Fintype ι] [Fintype κ] (x : ι → EReal) (hx : ∀ d, ∃ r : ℝ, x d = (r : EReal))
    (W : κ → ι → EReal) (hW : ∀ e d, ∃ r : ℝ, W e d = (r : EReal)) (ma : EReal) (hma : ∃ r : ℝ, ma = (r : EReal))
    (bias : κ → EReal) (e : κ) :
    logitR x W (Ideal.div cOne (max eps ma)) bias e
      = logitK x (fun d e' => wq (Ideal.div cOne (max eps ma)) (W e' d)) (Ideal.div cOne (Ideal.div cOne (max eps ma))) bias e := by
  have hswP : IsP (Ideal.div cOne (max eps ma)) := sw_pos ma hma
  generalize Ideal.div cOne (max eps ma) = sw at hswP ⊢
  show (∑ d, xqR x d * wR sw (W e d)) + bias e
    = Ideal.div ((∑ d, qK x d * wq sw (W e d)) * Ideal.div cOne sw) (saK x) + bias e
  congr 1
  obtain ⟨sa, hsa, hsa_eq⟩ := saK_pos x hx
  have hq : ∀ d, IsR (qK x d) := qK_isR x hx
  choose q hq using hq
  have hw : ∀ d, IsR (wq sw (W e d)) := fun d => wq_isR _ _ hswP.isR (hW e d)
  choose w hw using hw
  have hwR : ∀ d, wR sw (W e d) = Ideal.div (wq sw (W e d)) sw := fun d => wR_eq _ _ hswP (hW e d)
  obtain ⟨s, hs, rfl⟩ := hswP
  have hL : (∑ d, xqR x d * wR (s : EReal) (W e d)) = ((∑ d, q d / sa * (w d / s) : ℝ) : EReal) := by
    rw [coe_sum']
    refine Finset.sum_congr rfl fun d _ => ?_
    rw [xqR_eq x hx d, hwR d, hq d, hw d, hsa_eq, div_coe_coe _ _ hsa.ne', div_coe_coe _ _ hs.ne', ← EReal.coe_mul]
  have hS : (∑ d, qK x d * wq (s : EReal) (W e d)) = ((∑ d, q d * w d : ℝ) : EReal) := by
    rw [coe_sum']
    refine Finset.sum_congr rfl fun d _ => ?_
    rw [hq d, hw d, EReal.coe_mul]
  rw [hL, hS, hsa_eq, cOne_eq, div_coe_coe _ _ hs.ne', ← EReal.coe_mul, div_coe_coe _ _ hsa.ne']
  congr 1
  rw [Finset.sum_mul, Finset.sum_div]
  refine Finset.sum_congr rfl fun d _ => ?_
  field_simp

end Cert.Gate

end
-- ==== Proof.RefAct.lean ====
/-
  The reference program's de-quantised activations, read entry by entry.

  For one token (b, s) the reference program
    * squares the row, sums the squares from zero, takes the square root and floors it at a tiny constant: the norm;
    * divides each entry by that norm and multiplies by 64: the normalised row;
    * takes the largest absolute value of the normalised row (a maximum from minus infinity), floors it at a small
      constant and divides 127 by it: the activation scale;
    * multiplies the normalised entry by the scale, rounds to the nearest integer (ties to even) and clamps to
      [-128, 127]: the quantised activation;
    * divides the quantised activation by the scale, subtracts the normalised entry, and adds the normalised entry
      back: the de-quantised activation.
  Each step is read at an index given by its coordinates (b, s, d); a per-token quantity lives at (b, s, 0) of an
  array whose last axis has length one, or at (b, s). The result is the row-wise definition of the same quantity.
-/
import proofs.«131756_j74371653697964_2_alg».proof.Proof.RefRead
import proofs.«131756_j74371653697964_2_alg».proof.Proof.GateMath
import proofs.«131756_j74371653697964_2_alg».proof.Proof.LibFoldMax
import Idealize.ShloMosaic.PureOps.Reduce
import Idealize.ShloMosaic.Lib.ValueIdx

noncomputable section

namespace Cert.ReferenceIdeal.RefAct
open Cert.ReferenceIdeal Cert.ReferenceIdeal.Gen Idealize.ShloMosaic Idealize.ShloMosaic.ValueIdx
open Cert.ReferenceIdeal.ReadP

/-- The activations: an extended real per index (sequence, token, entry). -/
abbrev XTy : Type := (⟨S4x4096x4096, .f32⟩ : BufTy).Contents (Elt Ideal)

/-! ## The indices the layout operations read, at an index given by its coordinates -/

/-- Keeping the reduced axis as an axis of length one: (b, s, 0) reads (b, s). -/
theorem idx_call0_v2_ix (b : Fin 4) (s : Fin 4096) :
    idx_main_call0_v2 (ix3 b s (0 : Fin 1)) = ix2 b s :=
  funext fun a => Fin.ext (by match a with | ⟨0, _⟩ => rfl | ⟨1, _⟩ => rfl)

/-- The sum over the last axis at (b, s) runs over the entries (b, s, k). -/
theorem idx_call0_v1_ix (b : Fin 4) (s : Fin 4096) (k : Fin 4096) :
    idx_main_call0_v1 (ix2 b s) k = ix3 b s k :=
  funext fun a => Fin.ext (by match a with | ⟨0, _⟩ => rfl | ⟨1, _⟩ => rfl | ⟨2, _⟩ => rfl)

/-- Broadcasting a per-token value over the row: (b, s, d) reads (b, s, 0). -/
theorem idx_v3_ix (b : Fin 4) (s : Fin 4096) (d : Fin 4096) :
    idx_main_v3 (ix3 b s d) = ix3 b s (0 : Fin 1) :=
  funext fun a => Fin.ext (by match a with | ⟨0, _⟩ => rfl | ⟨1, _⟩ => rfl | ⟨2, _⟩ => rfl)

/-! ## The floored norm of a token -/

/-- At (b, s, 0): the square root of the sum of the row's squares (the sum starts from zero), floored at the tiny constant. -/
theorem val_v2_apply (X : XTy) (b : Fin 4) (s : Fin 4096) :
    val_main_v2 (F := Ideal) X (ix3 b s (0 : Fin 1)) = Cert.Gate.normOf (Cert.Gate.rowOf X b s) := by
  rw [val_main_v2_apply, val_main_v0_apply, val_main_call0_v2_apply, idx_call0_v2_ix, val_main_call0_v1_apply,
    val_main_v1_apply, val_main_cst_apply, val_main_call0_cst_apply]
  simp only [idx_call0_v1_ix, val_main_call0_v0_apply, Ideal.mulf_def, Ideal.maximumf_def, Ideal.hostUnary_sqrt_def,
    Ideal.ofBits_def, Ideal.ofBits_zero_f32, zero_add]
  rfl

/-! ## The normalised row -/

/-- At (b, s, d): the entry over the token's floored norm, times 64. -/
theorem val_v6_apply (X : XTy) (b : Fin 4) (s : Fin 4096) (d : Fin 4096) :
    val_main_v6 (F := Ideal) X (ix3 b s d) = Cert.Gate.xnR (Cert.Gate.rowOf X b s) d := by
  rw [val_main_v6_apply, val_main_v4_apply, val_main_v3_apply, idx_v3_ix, val_v2_apply, val_main_v5_apply,
    val_main_cst_0_apply]
  simp only [Ideal.mulf_def, Ideal.hostDivf_def, Ideal.ofBits_def]
  rfl

/-! ## The largest absolute value of the normalised row -/

/-- The index (b, s) with k put back on the last axis is (b, s, k). -/
theorem lift_ix (h : S4x4096x4096.Reduces [2] S4x4096) (b : Fin 4) (s : Fin 4096) (k : Fin (S4x4096x4096.size 2)) :
    h.lift (ix2 b s) k = ix3 b s (⟨k.val, k.isLt⟩ : Fin 4096) :=
  funext fun a => Fin.ext (by match a with | ⟨0, _⟩ => rfl | ⟨1, _⟩ => rfl | ⟨2, _⟩ => rfl)

/-- At (b, s): the maximum, from minus infinity (the least extended real), of the absolute values of the normalised
    row; the absolute value is the larger of a number and its negative. -/
theorem val_v8_apply (X : XTy) (b : Fin 4) (s : Fin 4096) :
    val_main_v8 (F := Ideal) X (ix2 b s) = Cert.Gate.amaxOf (Cert.Gate.xnR (Cert.Gate.rowOf X b s)) := by
  have h : S4x4096x4096.Reduces [2] S4x4096 := by decide
  unfold val_main_v8
  rw [Host.reduce_eq_fold_single FloatOps.maximumf _ _ _ h]
  have hf : (val_main_v7 (F := Ideal) X ∘ h.lift (ix2 b s))
      = fun k : Fin 4096 => Cert.Gate.eabs (Cert.Gate.xnR (Cert.Gate.rowOf X b s) k) :=
    funext fun k => by
      show val_main_v7 (F := Ideal) X (h.lift (ix2 b s) k) = _
      rw [lift_ix, val_main_v7_apply, val_v6_apply]
      rfl
  rw [hf, val_main_cst_1_apply, Ideal.ofBits_def, Cert.FoldMax.neg_inf_f32]
  rfl

/-! ## The activation scale of a token -/

/-- Keeping the reduced axis as an axis of length one: (b, s, 0) reads (b, s). -/
theorem idx_v9_ix (b : Fin 4) (s : Fin 4096) :
    idx_main_v9 (ix3 b s (0 : Fin 1)) = ix2 b s :=
  funext fun a => Fin.ext (by match a with | ⟨0, _⟩ => rfl | ⟨1, _⟩ => rfl)

/-- At (b, s, 0): 127 over the largest absolute value of the normalised row, floored at the small constant. -/
theorem val_v12_apply (X : XTy) (b : Fin 4) (s : Fin 4096) :
    val_main_v12 (F := Ideal) X (ix3 b s (0 : Fin 1)) = Cert.Gate.saR (Cert.Gate.rowOf X b s) := by
  rw [val_main_v12_apply, val_main_v11_apply, val_main_cst_3_apply, val_main_v10_apply, val_main_call1_v1_apply,
    val_main_call1_v0_apply, val_main_cst_2_apply, val_main_v9_apply, idx_v9_ix, val_v8_apply]
  simp only [Ideal.maximumf_def, Ideal.hostDivf_def, Ideal.ofBits_def]
  rfl

/-! ## The quantised activation -/

/-- Broadcasting the scale over the row: (b, s, d) reads (b, s, 0). -/
theorem idx_v13_ix (b : Fin 4) (s : Fin 4096) (d : Fin 4096) :
    idx_main_v13 (ix3 b s d) = ix3 b s (0 : Fin 1) :=
  funext fun a => Fin.ext (by match a with | ⟨0, _⟩ => rfl | ⟨1, _⟩ => rfl | ⟨2, _⟩ => rfl)

/-- The second broadcast of the scale over the row: (b, s, d) reads (b, s, 0). -/
theorem idx_v17_ix (b : Fin 4) (s : Fin 4096) (d : Fin 4096) :
    idx_main_v17 (ix3 b s d) = ix3 b s (0 : Fin 1) :=
  funext fun a => Fin.ext (by match a with | ⟨0, _⟩ => rfl | ⟨1, _⟩ => rfl | ⟨2, _⟩ => rfl)

/-- The clamp bounds are the integers -128 and 127 converted to reals, which are the values of the two float literals. -/
theorem val_v16_apply (X : XTy) (b : Fin 4) (s : Fin 4096) (d : Fin 4096) :
    val_main_v16 (F := Ideal) X (ix3 b s d) = Cert.Gate.qR (Cert.Gate.rowOf X b s) d := by
  rw [val_main_v16_apply, val_main_call3_v4_apply, val_main_call3_v3_apply, val_main_c_4_apply,
    val_main_call3_v2_apply, val_main_call3_v1_apply, val_main_call3_v0_apply, val_main_c_apply,
    val_main_v15_apply, val_main_v14_apply, val_v6_apply, val_main_v13_apply, idx_v13_ix, val_v12_apply]
  simp only [Ideal.maximumf_def, Ideal.minimumf_def, Ideal.mulf_def, Ideal.hostUnary_roundeven_def]
  show min (((127#32 : BitVec 32).toInt : ℝ) : EReal) (max (((4294967168#32 : BitVec 32).toInt : ℝ) : EReal)
    (Ideal.liftRound Ideal.roundHalfEven (Cert.Gate.xnR (Cert.Gate.rowOf X b s) d * Cert.Gate.saR (Cert.Gate.rowOf X b s)))) = _
  rw [Cert.Gate.sitofp_127, Cert.Gate.sitofp_neg128]
  rfl

/-! ## The de-quantised activation -/

/-- At (b, s, d): the normalised entry plus (the quantised activation over the scale, minus the normalised entry). -/
theorem val_v20_apply (X : (⟨S4x4096x4096, .f32⟩ : BufTy).Contents (Elt Ideal)) (b : Fin 4) (s : Fin 4096) (d : Fin 4096) :
    Cert.ReferenceIdeal.ReadP.val_main_v20 (F := Ideal) X (ix3 b s d) = Cert.Gate.xqR (Cert.Gate.rowOf X b s) d := by
  rw [val_main_v20_apply, val_main_v19_apply, val_main_v18_apply, val_v16_apply, val_main_v17_apply, idx_v17_ix,
    val_v12_apply, val_v6_apply]
  simp only [Ideal.addf_def, Ideal.subf_def, Ideal.hostDivf_def]
  rfl

end Cert.ReferenceIdeal.RefAct

end
-- ==== Proof.RefTail.lean ====
/-
  The reference program's tail, read at an index: the de-quantised weights, the logits and the softmax.

  The reference computes, from the weights W (8 experts by 4096 entries), one global scale
  sw = 1 / max (eps, mean |W|), the mean being the total of the 32768 absolute values (summed from the zero pattern)
  over 32768; it quantises each weight to round (w · sw) clamped to [-1, 1], divides by sw again, and writes the
  de-quantised weight as w + (q / sw - w). The logit of token (b, s) and expert e is the contraction over the 4096
  entries of the de-quantised activations with the de-quantised weights of expert e, plus the bias of e. The result is
  the softmax over the 8 experts: each logit minus the token's largest logit (a maximum taken from minus infinity, and
  once more against minus infinity, which changes nothing), exponentiated, over the sum of the eight exponentials
  (a sum taken from the zero pattern, which adds nothing).

  Each lemma below reads one of these stages at an index built from its coordinates, by chaining the stage-by-stage
  reading lemmas of the reference and identifying the composed index maps of the broadcasts, of the contraction and
  of the two reductions with the plain coordinates. The de-quantised activations (stage main_v20) stay opaque here.
-/
import proofs.«131756_j74371653697964_2_alg».proof.Proof.RefRead
import proofs.«131756_j74371653697964_2_alg».proof.Proof.GateMath
import proofs.«131756_j74371653697964_2_alg».proof.Proof.LibFoldMax
import Idealize.ShloMosaic.PureOps.Reduce
import Idealize.ShloMosaic.Lib.ValueIdx

noncomputable section

namespace Cert.ReferenceIdeal.RefTail

open Cert.ReferenceIdeal Cert.ReferenceIdeal.Gen Idealize.ShloMosaic Idealize.ShloMosaic.ValueIdx
open Cert.ReferenceIdeal.ReadP

/-- The weight scale: one over the larger of the floor and the mean absolute weight. -/
theorem val_v25 (W : (⟨S8x4096, .f32⟩ : BufTy).Contents (Elt Ideal)) (j : S_.Idx) :
    val_main_v25 (F := Ideal) W j = Cert.Gate.swOf W := by
  rw [val_main_v25_apply, val_main_v24_apply, val_main_v23_apply, val_main_v22_apply]
  rfl

/-- The ternary weight at an index: the weight times the scale, rounded to the nearest integer, clamped to [-1, 1]. -/
theorem val_v29 (W : (⟨S8x4096, .f32⟩ : BufTy).Contents (Elt Ideal)) (i : S8x4096.Idx) :
    val_main_v29 (F := Ideal) W i = Cert.Gate.wq (Cert.Gate.swOf W) (W i) := by
  rw [val_main_v29_apply, val_main_call6_v4_apply, val_main_call6_v3_apply, val_main_c_10_apply,
    val_main_call6_v2_apply, val_main_call6_v1_apply, val_main_call6_v0_apply, val_main_c_9_apply,
    val_main_v28_apply, val_main_v27_apply, val_main_v26_apply, val_v25]
  show min (((1#32 : BitVec 32).toInt : ℝ) : EReal) (max (((4294967295#32 : BitVec 32).toInt : ℝ) : EReal)
    (Ideal.liftRound Ideal.roundHalfEven (W i * Cert.Gate.swOf W))) = _
  rw [Cert.Gate.sitofp_one, Cert.Gate.sitofp_negOne]
  rfl

/-- the de-quantised weight -/
theorem val_v33_apply (W : (⟨S8x4096, .f32⟩ : BufTy).Contents (Elt Ideal)) (e : Fin 8) (d : Fin 4096) :
    Cert.ReferenceIdeal.ReadP.val_main_v33 (F := Ideal) W (ix2 e d) = Cert.Gate.wR (Cert.Gate.swOf W) (W (ix2 e d)) := by
  rw [val_main_v33_apply, val_main_v32_apply, val_main_v31_apply, val_main_v30_apply, val_v25, val_v29]
  rfl

/-- The left operand's index of the contraction at result index (b, s, e) and position k is (b, s, k). -/
theorem lidx_v34_ix3 (b : Fin 4) (s : Fin 4096) (e : Fin 8) (k : Fin 4096) :
    lidx_main_v34 (ix3 b s e) k = ix3 b s k :=
  funext fun a => Fin.ext (by match a with | ⟨0, _⟩ => rfl | ⟨1, _⟩ => rfl | ⟨2, _⟩ => rfl)

/-- The right operand's index of the contraction at result index (b, s, e) and position k is (e, k). -/
theorem ridx_v34_ix3 (b : Fin 4) (s : Fin 4096) (e : Fin 8) (k : Fin 4096) :
    ridx_main_v34 (ix3 b s e) k = ix2 e k :=
  funext fun a => Fin.ext (by match a with | ⟨0, _⟩ => rfl | ⟨1, _⟩ => rfl)

/-- The bias, broadcast twice, is read at the expert coordinate. -/
theorem idx_v35_v36_ix3 (b : Fin 4) (s : Fin 4096) (e : Fin 8) :
    idx_main_v35 (idx_main_v36 (ix3 b s e)) = ix1 e :=
  funext fun a => Fin.ext (by match a with | ⟨0, _⟩ => rfl)

/-- the logits: the contraction of the de-quantised activations (stage main_v20, kept opaque here) with the de-quantised weights, plus the bias -/
theorem val_v37_apply (X : (⟨S4x4096x4096, .f32⟩ : BufTy).Contents (Elt Ideal)) (W : (⟨S8x4096, .f32⟩ : BufTy).Contents (Elt Ideal)) (B : (⟨S8, .f32⟩ : BufTy).Contents (Elt Ideal)) (b : Fin 4) (s : Fin 4096) (e : Fin 8) :
    Cert.ReferenceIdeal.ReadP.val_main_v37 (F := Ideal) X W B (ix3 b s e)
      = (∑ d : Fin 4096, Cert.ReferenceIdeal.ReadP.val_main_v20 (F := Ideal) X (ix3 b s d) * Cert.Gate.wR (Cert.Gate.swOf W) (W (ix2 e d))) + B (ix1 e) := by
  rw [val_main_v37_apply, val_main_v34_apply, val_main_v36_apply, val_main_v35_apply, idx_v35_v36_ix3]
  generalize val_main_v20 (F := Ideal) X = Y
  show (∑ k : Fin 4096, Y (lidx_main_v34 (ix3 b s e) k) * val_main_v33 (F := Ideal) W (ridx_main_v34 (ix3 b s e) k)) + B (ix1 e) = _
  refine congrArg (· + B (ix1 e)) (Finset.sum_congr rfl fun k _ => ?_)
  rw [lidx_v34_ix3, ridx_v34_ix3, val_v33_apply]

/-- The running maximum of the logits over the experts, from the pattern of minus infinity: at token (b, s) it is the
    maximum, from the least extended real, of the eight logits. -/
theorem val_v38 (X : (⟨S4x4096x4096, .f32⟩ : BufTy).Contents (Elt Ideal)) (W : (⟨S8x4096, .f32⟩ : BufTy).Contents (Elt Ideal)) (B : (⟨S8, .f32⟩ : BufTy).Contents (Elt Ideal)) (b : Fin 4) (s : Fin 4096) :
    val_main_v38 (F := Ideal) X W B (ix2 b s)
      = (Finset.univ : Finset (Fin 8)).fold max ⊥ (fun e' : Fin 8 => val_main_v37 (F := Ideal) X W B (ix3 b s e')) := by
  unfold val_main_v38
  generalize val_main_v37 (F := Ideal) X W B = y
  have h : S4x4096x8.Reduces [2] S4x4096 := by decide
  refine (Host.reduce_eq_fold_single (α := Ideal .f32) FloatOps.maximumf y _ reducesTo_S4x4096x8_S4x4096_d2 h h_S_ (ix2 b s)).trans ?_
  have hf : ((y : S4x4096x8.Idx → Ideal .f32) ∘ h.lift (ix2 b s)) = fun k : Fin 8 => y (ix3 b s k) :=
    funext fun k => congrArg y (funext fun a => Fin.ext (by match a with | ⟨0, _⟩ => rfl | ⟨1, _⟩ => rfl | ⟨2, _⟩ => rfl))
  rw [hf]
  show (Finset.univ : Finset (Fin 8)).fold max (Ideal.ofBits .f32 0xFF800000#32) (fun k : Fin 8 => y (ix3 b s k)) = _
  rw [Cert.FoldMax.neg_inf_f32]

/-- The maximum once more against minus infinity changes nothing. -/
theorem val_v40 (X : (⟨S4x4096x4096, .f32⟩ : BufTy).Contents (Elt Ideal)) (W : (⟨S8x4096, .f32⟩ : BufTy).Contents (Elt Ideal)) (B : (⟨S8, .f32⟩ : BufTy).Contents (Elt Ideal)) (b : Fin 4) (s : Fin 4096) :
    val_main_v40 (F := Ideal) X W B (ix2 b s)
      = (Finset.univ : Finset (Fin 8)).fold max ⊥ (fun e' : Fin 8 => val_main_v37 (F := Ideal) X W B (ix3 b s e')) := by
  rw [val_main_v40_apply, val_main_v39_apply, val_main_cst_12_apply, val_v38]
  show max (Ideal.ofBits .f32 0xFF800000#32) _ = _
  rw [Cert.FoldMax.neg_inf_f32]
  exact max_eq_right bot_le

/-- The maximum, kept as a size-one axis and broadcast back, is read at the token's coordinates. -/
theorem idx_v41_v42_ix3 (b : Fin 4) (s : Fin 4096) (e : Fin 8) :
    idx_main_v41 (idx_main_v42 (ix3 b s e)) = ix2 b s :=
  funext fun a => Fin.ext (by match a with | ⟨0, _⟩ => rfl | ⟨1, _⟩ => rfl)

/-- The sum, kept as a size-one axis and broadcast back, is read at the token's coordinates. -/
theorem idx_v46_v47_ix3 (b : Fin 4) (s : Fin 4096) (e : Fin 8) :
    idx_main_v46 (idx_main_v47 (ix3 b s e)) = ix2 b s :=
  funext fun a => Fin.ext (by match a with | ⟨0, _⟩ => rfl | ⟨1, _⟩ => rfl)

/-- The token's index with expert k inserted on the summed axis is (b, s, k). -/
theorem idx_v45_ix2 (b : Fin 4) (s : Fin 4096) (k : Fin 8) :
    idx_main_v45 (ix2 b s) k = ix3 b s k :=
  funext fun a => Fin.ext (by match a with | ⟨0, _⟩ => rfl | ⟨1, _⟩ => rfl | ⟨2, _⟩ => rfl)

/-- The exponential of a logit shifted by the token's maximum logit. -/
theorem val_v44 (X : (⟨S4x4096x4096, .f32⟩ : BufTy).Contents (Elt Ideal)) (W : (⟨S8x4096, .f32⟩ : BufTy).Contents (Elt Ideal)) (B : (⟨S8, .f32⟩ : BufTy).Contents (Elt Ideal)) (b : Fin 4) (s : Fin 4096) (e : Fin 8) :
    val_main_v44 (F := Ideal) X W B (ix3 b s e)
      = Ideal.exp (val_main_v37 (F := Ideal) X W B (ix3 b s e)
          - (Finset.univ : Finset (Fin 8)).fold max ⊥ (fun e' : Fin 8 => val_main_v37 (F := Ideal) X W B (ix3 b s e'))) := by
  rw [val_main_v44_apply, val_main_v43_apply, val_main_v42_apply, val_main_v41_apply, idx_v41_v42_ix3, val_v40]
  rfl

/-- The sum of the eight shifted exponentials; the zero pattern it starts from adds nothing. -/
theorem val_v45 (X : (⟨S4x4096x4096, .f32⟩ : BufTy).Contents (Elt Ideal)) (W : (⟨S8x4096, .f32⟩ : BufTy).Contents (Elt Ideal)) (B : (⟨S8, .f32⟩ : BufTy).Contents (Elt Ideal)) (b : Fin 4) (s : Fin 4096) :
    val_main_v45 (F := Ideal) X W B (ix2 b s)
      = ∑ k : Fin 8, Ideal.exp (val_main_v37 (F := Ideal) X W B (ix3 b s k)
          - (Finset.univ : Finset (Fin 8)).fold max ⊥ (fun e' : Fin 8 => val_main_v37 (F := Ideal) X W B (ix3 b s e'))) := by
  rw [val_main_v45_apply, val_main_cst_13_apply]
  show Ideal.ofBits .f32 0x00000000#32 + _ = _
  rw [Ideal.ofBits_zero_f32, zero_add]
  refine Finset.sum_congr rfl fun k _ => ?_
  rw [idx_v45_ix2, val_v44]

/-- the result: the softmax of the logits over the 8 experts -/
theorem val_v48_apply (X : (⟨S4x4096x4096, .f32⟩ : BufTy).Contents (Elt Ideal)) (W : (⟨S8x4096, .f32⟩ : BufTy).Contents (Elt Ideal)) (B : (⟨S8, .f32⟩ : BufTy).Contents (Elt Ideal)) (b : Fin 4) (s : Fin 4096) (e : Fin 8) :
    Cert.ReferenceIdeal.ReadP.val_main_v48 (F := Ideal) X W B (ix3 b s e)
      = Cert.Gate.softmax (fun e' : Fin 8 => Cert.ReferenceIdeal.ReadP.val_main_v37 (F := Ideal) X W B (ix3 b s e')) e := by
  rw [val_main_v48_apply, val_main_v47_apply, val_main_v46_apply, idx_v46_v47_ix3, val_v45, val_v44]
  rfl

end Cert.ReferenceIdeal.RefTail

end
-- ==== Proof.RefValue.lean ====
/-
  The reference's run, read: on finite inputs its result array is the router's value of the arguments.

  The reference's last stage is, index by index, the softmax over the experts of its logits (`RefTail.val_v48_apply`); a logit
  is the contraction of the de-quantised activations (`RefAct.val_v20_apply`) with the de-quantised weights plus the bias
  (`RefTail.val_v37_apply`): `Gate.logitR` of the token's row. On finite inputs that is `Gate.logitK` with the scales
  folded (`Gate.logitR_eq_logitK`), which is what `Gate.route` takes the softmax of. The run's fold of the operations is the
  last stage (`Stages.after_v48`), and no operation writes an argument.
-/
import proofs.«131756_j74371653697964_2_alg».proof.Proof.RefStages
import proofs.«131756_j74371653697964_2_alg».proof.Proof.RefAct
import proofs.«131756_j74371653697964_2_alg».proof.Proof.RefTail
import proofs.«131756_j74371653697964_2_alg».proof.Proof.GateMath

noncomputable section

open Idealize.ShloMosaic Idealize.ShloMosaic.TcCoe Idealize.SL.Sem

namespace Cert.ReferenceIdeal.RefValue

open Cert.ReferenceIdeal Cert.ReferenceIdeal.Gen Idealize.ShloMosaic.StableHlo Idealize.ShloMosaic.ValueIdx

/-- On finite activations and weights the reference's last stage is the router's value, as whole arrays. -/
theorem val_v48_eq_route (X : (⟨S4x4096x4096, .f32⟩ : BufTy).Contents (Elt Ideal)) (W : (⟨S8x4096, .f32⟩ : BufTy).Contents (Elt Ideal))
    (B : (⟨S8, .f32⟩ : BufTy).Contents (Elt Ideal))
    (hX : ∀ i, ∃ r : ℝ, X i = (r : EReal)) (hW : ∀ j, ∃ r : ℝ, W j = (r : EReal)) :
    Cert.ReferenceIdeal.ReadP.val_main_v48 (F := Ideal) X W B = Cert.Gate.route X W B := by
  funext i
  obtain ⟨b, s, e, rfl⟩ : ∃ (b : Fin 4) (s : Fin 4096) (e : Fin 8), i = ix3 b s e := ⟨i 0, i 1, i 2, eq_ix3 i⟩
  rw [RefTail.val_v48_apply, Cert.Gate.route_ix3]
  unfold Cert.Gate.routeAt
  refine congrArg (fun l : Fin 8 → EReal => Cert.Gate.softmax l e) (funext fun e' => ?_)
  rw [RefTail.val_v37_apply]
  have h := Cert.Gate.logitR_eq_logitK (Cert.Gate.rowOf X b s) (fun d => hX _) (fun (e'' : Fin 8) (d : Fin 4096) => W (ix2 e'' d))
    (fun e'' d => hW _) (Cert.Gate.meanAbs W) (Cert.Gate.meanAbs_real W hW) (fun e'' : Fin 8 => B (ix1 e'')) e'
  refine Eq.trans ?_ h
  unfold Cert.Gate.logitR
  refine congrArg (· + B (ix1 e')) (Finset.sum_congr rfl fun d _ => ?_)
  rw [RefAct.val_v20_apply]
  rfl

variable (m : (ℓ : Loc nD τ sig) → Buf (Elt Ideal) ℓ) (ρ : Dev nD → PrngReg)

/-- Every weakly fair execution of the reference terminates with its arguments unchanged. -/
theorem frame : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c main_arg0).trans (Stages.after_arg0 _), (h c main_arg1).trans (Stages.after_arg1 _),
      (h c main_arg2).trans (Stages.after_arg2 _)⟩)
    (Cert.ReferenceIdeal.RunP.run_after (F := Ideal) m ρ)

/-- From finite activations and weights, every weakly fair execution of the reference terminates with the result array at
    the router's value of the arguments, the arguments unchanged. -/
theorem run (hX : ∀ (c : Dev nD) i, ∃ r : ℝ, (m ((c.tc : Thread nD τ).loc main_arg0) : S4x4096x4096.Idx → EReal) i = (r : EReal))
    (hW : ∀ (c : Dev nD) j, ∃ r : ℝ, (m ((c.tc : Thread nD τ).loc main_arg1) : S8x4096.Idx → EReal) j = (r : EReal)) :
    θ_run defs (onTc (τ := τ) (main (F := Ideal))) ⟨m, fun _ => 0, ρ⟩ fun r => ∀ c : Dev nD,
      r.2.mem ((c.tc : Thread nD τ).loc main_v48)
        = Cert.Gate.route (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c main_v48).trans ((Stages.after_v48 _).trans (val_v48_eq_route _ _ _ (hX c) (hW c))),
      (h c main_arg0).trans (Stages.after_arg0 _), (h c main_arg1).trans (Stages.after_arg1 _), (h c main_arg2).trans (Stages.after_arg2 _)⟩)
    (Cert.ReferenceIdeal.RunP.run_after (F := Ideal) m ρ)

end Cert.ReferenceIdeal.RefValue

end
-- ==== Proof.Finite.lean ====
/-
  From the precondition to finiteness, entry by entry.

  The precondition says, for each of the three arrays, that every entry's absolute value is strictly below the
  positive infinity, the three statements joined by "and" and each "for every entry" computed as a conjunction over
  the whole array started at "true". Over the extended reals the absolute value of either infinity is the top element,
  which is not strictly below itself; so an entry that passes is neither infinity, that is, it is a real number.
-/
import proofs.«131756_j74371653697964_2_alg».proof.Pre_finite_inputs
import Idealize.ShloMosaic.PureOps.Ideal
import Idealize.ShloMosaic.Lib.ValueIdx
import Idealize.ShloMosaic.Lib.ReduceAll

namespace Cert.FiniteInputs

open Idealize.ShloMosaic

/-- The f32 pattern with exponent all ones, fraction zero and sign clear denotes the top extended real. -/
theorem inf_eq_top : Ideal.ofBits .f32 0x7F800000#32 = (⊤ : EReal) := by
  simp [Ideal.ofBits, Ideal.ieee]

/-- An extended real whose absolute value `max x (-x)` is strictly below the positive infinity is a real number:
    at either infinity the absolute value is the top element itself. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | top => simp [Ideal.cmp] at h
  | coe r => exact ⟨r, rfl⟩

/-- The shape with no axes has exactly one index. -/
instance : Subsingleton Cert.Pre_finite_inputs.S_.Idx := ⟨fun _ _ => funext fun d => d.elim0⟩

theorem real_of_pre [Cert.Pre_finite_inputs.Facts]
    (X : FVec Ideal Cert.Pre_finite_inputs.S4x4096x4096 .f32) (W : FVec Ideal Cert.Pre_finite_inputs.S8x4096 .f32)
    (B : FVec Ideal Cert.Pre_finite_inputs.S8 .f32)
    (h : Cert.Pre_finite_inputs.fn (F := Ideal) X W B = fun _ => 1#1) :
    (∀ i, ∃ r : ℝ, X i = (r : EReal)) ∧ (∀ j, ∃ r : ℝ, W j = (r : EReal)) ∧ (∀ k, ∃ r : ℝ, B k = (r : EReal)) := by
  have h0 := congrFun h ValueIdx.ix0
  unfold Cert.Pre_finite_inputs.fn at h0
  dsimp only at h0
  obtain ⟨hXW, hB⟩ := IntOp.andi_eq_one.1 h0
  obtain ⟨hX, hW⟩ := IntOp.andi_eq_one.1 hXW
  refine ⟨fun i => ?_, fun j => ?_, fun k => ?_⟩
  · exact real_of_abs_lt _ (Host.reduce_andi_all _ _ _ _ _ hX i)
  · exact real_of_abs_lt _ (Host.reduce_andi_all _ _ _ _ _ hW j)
  · exact real_of_abs_lt _ (Host.reduce_andi_all _ _ _ _ _ hB k)

end Cert.FiniteInputs
-- ==== Proof.lean ====
/- The proof of `Cert.Claim`: a token router (root-mean-square normalisation, 8-bit quantisation of the activations,
   ternary quantisation of the weights, softmax over 8 experts) computed by a kernel that folds the quantisation scales into
   the small product, against a reference that rescales every factor first.

   Over the extended reals both programs compute `Gate.route` of their three arguments (Proof/Gate.lean):
   * the kernel — one block of 512 tokens per grid point, read entry by entry (Proof/KernelRow.lean, KernelBlock.lean), the 32
     blocks tiling the result (KernelArray.lean), the arrays its host code prepares read back to the arguments (KernelHost.lean,
     KernelRun.lean);
   * the reference — its operations read at an index (RefAct.lean, RefTail.lean over RefRead.lean), its run as the fold of
     its operations (RefRun.lean, RefStages.lean), and, on FINITE inputs, the factor-by-factor logit equal to the folded one
     (GateMath.lean: the one place the precondition is used, Finite.lean), in RefValue.lean.
   The three frames are the programs' runs with the result dropped; the ideal pass rewrote nothing, so `preserves` is `True`. -/
import proofs.«131756_j74371653697964_2_alg».proof.Defs
import proofs.«131756_j74371653697964_2_alg».proof.Proof.Gen.Kernel
import proofs.«131756_j74371653697964_2_alg».proof.Proof.Gen.Kernel.Frame
import proofs.«131756_j74371653697964_2_alg».proof.Proof.Gen.KernelIdeal
import proofs.«131756_j74371653697964_2_alg».proof.Proof.Gen.KernelIdeal.Frame
import proofs.«131756_j74371653697964_2_alg».proof.Proof.Gen.KernelIdeal.Value
import proofs.«131756_j74371653697964_2_alg».proof.Proof.Gen.ReferenceIdeal
import proofs.«131756_j74371653697964_2_alg».proof.Proof.Gen.Pre_finite_inputs
import proofs.«131756_j74371653697964_2_alg».proof.Proof.KernelRun
import proofs.«131756_j74371653697964_2_alg».proof.Proof.RefValue
import proofs.«131756_j74371653697964_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.RefValue.frame m ρ

/-- The ideal pass rewrote no operation: there is nothing to preserve. -/
theorem preserves : Cert.preserves_Kernel_KernelIdeal := trivial

/-- From memories agreeing on finite arguments both programs end with the router's value of those arguments. -/
theorem algebraic : Cert.algebraic_KernelIdeal_ReferenceIdeal := by
  intro m ρ m' ρ' hpre hagree
  have hfin := fun c => Cert.FiniteInputs.real_of_pre _ _ _ (hpre c)
  refine ⟨fun c => Cert.Gate.route (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun r h c => ?_)
    (Cert.ReferenceIdeal.RefValue.run m' ρ' (fun c => by rw [(hagree c).1]; exact (hfin c).1) (fun c => by rw [(hagree c).2.1]; exact (hfin c).2.1))
  obtain ⟨h1, h2⟩ := h c
  exact ⟨h1.trans (by rw [(hagree c).1, (hagree c).2.1, (hagree c).2.2]), h2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
